-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x1 : Shape := ⟨2, ![8192, 1]⟩
abbrev S1024x256 : Shape := ⟨2, ![1024, 256]⟩
abbrev S256x2048 : Shape := ⟨2, ![256, 2048]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 44
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x256, .bf16⟩
  | .hbm, ⟨30, _⟩ => ⟨S4096x256, .bf16⟩
  | .hbm, ⟨31, _⟩ => ⟨S8192x256, .bf16⟩
  | .hbm, ⟨32, _⟩ => ⟨S256x8192, .bf16⟩
  | .hbm, ⟨33, _⟩ => ⟨S8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S256x2048, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S4096_S_d0 : S4096.ReducesTo [0] S_
  bitsLt_bf16_f32 : FTy.bits .bf16 < FTy.bits .f32
  concatenates_S4096x256_S4096x256_S8192x256_d0 : Shape.Concatenates [S4096x256, S4096x256] S8192x256 0
  transposes_S8192x256_S256x8192_1_0 : S8192x256.Transposes [1, 0] S256x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S1024x2048_S1024 : S1024x2048.Reduces [1] S1024
  shapeCasts_S1024_S1024x1 : S1024.ShapeCasts S1024x1
  reducesTo_S8192x1_S_d0_1 : S8192x1.ReducesTo [0, 1] S_
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x8192.size a
  hwx0_1 : ∀ i : grid0.Coords, EltTy.bits .bf16 = 32 ∨ (Rect.block (s := S256x8192) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v16) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x8192, .f32⟩
  | .hbm, ⟨58, _⟩ => ⟨S8192x8192, .f32⟩
  | .hbm, ⟨59, _⟩ => ⟨S8192x1, .i32⟩
  | .hbm, ⟨60, _⟩ => ⟨S_, .i32⟩
  | .hbm, ⟨61, _⟩ => ⟨S8192x1, .i32⟩
  | .hbm, ⟨62, _⟩ => ⟨S8192x1, .i1⟩
  | .hbm, ⟨63, _⟩ => ⟨S_, .i32⟩
  | .hbm, ⟨64, _⟩ => ⟨S8192x1, .i32⟩
  | .hbm, ⟨65, _⟩ => ⟨S8192x1, .i32⟩
  | .hbm, ⟨66, _⟩ => ⟨S8192x1, .i32⟩
  | .hbm, ⟨67, _⟩ => ⟨S8192x1x1, .i32⟩
  | .hbm, ⟨68, _⟩ => ⟨S1, .i32⟩
  | .hbm, ⟨69, _⟩ => ⟨S_, .i32⟩
  | .hbm, ⟨70, _⟩ => ⟨S8192x1x1, .i32⟩
  | .hbm, ⟨71, _⟩ => ⟨S8192x1x1, .i1⟩
  | .hbm, ⟨72, _⟩ => ⟨S1x1x1, .i32⟩
  | .hbm, ⟨73, _⟩ => ⟨S8192x1x1, .i32⟩
  | .hbm, ⟨74, _⟩ => ⟨S8192x1x1, .i1⟩
  | .hbm, ⟨75, _⟩ => ⟨S8192x1x1, .i1⟩
  | .hbm, ⟨76, _⟩ => ⟨S_, .i1⟩
  | .hbm, ⟨77, _⟩ => ⟨S8192x1, .i1⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v13 : Ref sig .tc := ⟨.hbm, 43, rfl⟩
abbrev main_call2_cst : Ref sig .tc := ⟨.hbm, 44, rfl⟩
abbrev main_call2_v0 : Ref sig .tc := ⟨.hbm, 45, rfl⟩
abbrev main_call2_cst_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_cst_1 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_v14 : Ref sig .tc := ⟨.hbm, 58, rfl⟩
abbrev main_v15 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_cst : Ref sig .tc := ⟨.hbm, 79, rfl⟩
abbrev main_call3_v14 : Ref sig .tc := ⟨.hbm, 80, rfl⟩
abbrev main_v16 : Ref sig .tc := ⟨.hbm, 81, rfl⟩
abbrev main_v17 : Ref sig .tc := ⟨.hbm, 82, rfl⟩
abbrev main_cst_2 : Ref sig .tc := ⟨.hbm, 83, rfl⟩
abbrev main_v18 : Ref sig .tc := ⟨.hbm, 84, rfl⟩
abbrev main_v19 : Ref sig .tc := ⟨.hbm, 85, rfl⟩
abbrev main_cst_3 : Ref sig .tc := ⟨.hbm, 86, rfl⟩
abbrev main_v20 : Ref sig .tc := ⟨.hbm, 87, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.Spec.lean ====
/-
  The contrastive loss both programs compute, as one function of the two [4096, 256] tables, on the
  extended reals.

  Stack the tables into 8192 rows, divide each row by its Euclidean norm clamped below at a small
  positive constant, and let cosine r c be the inner product of unit rows r and c. Row r's partner is
  row r + 4096 modulo 8192.
  * One program forms, per row, 2 + log (sum over c of exp (2 * cosine r c - 2)) — a log-sum-exp with the
    fixed shift 2 — and returns  -((2 * S) / (1/2)) / 8192 + (sum over r of that) / 8192, where S is the
    sum over the first 4096 rows of cosine p (p + 4096).
  * The other forms the logits cosine r c / (1/2), subtracts the row maximum, takes the log-softmax, picks
    the partner's entry in every row, and returns -(sum over r) / 8192.
  The literals stay the words the programs print; their values are read where the two losses are compared.
-/
import Idealize.ShloMosaic.PureOps.Ideal
import Idealize.ShloMosaic.Lib.ValueIdx

noncomputable section

namespace Cert.Contrast

open Idealize.ShloMosaic Idealize.ShloMosaic.ValueIdx

/-- A [4096, 256] table of extended reals. -/
abbrev Table : Type := (⟨2, ![4096, 256]⟩ : Shape).Idx → EReal

/-- The norm clamp (the f32 nearest 1e-8). -/
def eps : EReal := Ideal.ofBits .f32 0x322BCC77#32
/-- 2, the inverse temperature. -/
def two : EReal := Ideal.ofBits .f32 0x40000000#32
/-- 1/2, the temperature. -/
def half : EReal := Ideal.ofBits .f32 0x3F000000#32
/-- 8192, the number of rows. -/
def count : EReal := Ideal.ofBits .f32 0x46000000#32
/-- The start value of a row maximum: minus infinity. -/
def ninf : EReal := Ideal.ofBits .f32 0xFF800000#32

/-- Entry (r, d) of the two tables stacked: rows 0 … 4095 are `a`'s, rows 4096 … 8191 are `b`'s. -/
def stacked (a b : Table) (r : Fin 8192) (d : Fin 256) : EReal :=
  if h : r.val < 4096 then a (ix2 (⟨r.val, h⟩ : Fin 4096) d)
  else b (ix2 (⟨r.val - 4096, by have := r.isLt; omega⟩ : Fin 4096) d)

/-- Row r's Euclidean norm, clamped below at `eps`. -/
def rowNorm (a b : Table) (r : Fin 8192) : EReal :=
  max (Ideal.sqrt (∑ d : Fin 256, stacked a b r d * stacked a b r d)) eps

/-- Entry (r, d) of the unit rows. -/
def unit (a b : Table) (r : Fin 8192) (d : Fin 256) : EReal :=
  Ideal.div (stacked a b r d) (rowNorm a b r)

/-- The cosine of rows r and c. -/
def cosine (a b : Table) (r c : Fin 8192) : EReal :=
  ∑ d : Fin 256, unit a b r d * unit a b c d

/-! ### The log-sum-exp with a fixed shift -/

/-- exp (2 * cosine - 2). -/
def shiftedExp (a b : Table) (r c : Fin 8192) : EReal :=
  Ideal.exp (cosine a b r c * two - two)

/-- Row r's log-sum-exp of the logits, with the fixed shift 2. -/
def rowLse (a b : Table) (r : Fin 8192) : EReal :=
  two + Ideal.log (∑ c : Fin 8192, shiftedExp a b r c)

/-- The same row quantity written over ANY pair of operand arrays X : [8192, 256] and Y : [256, 8192]
    (the inner products are those of X's rows against Y's columns): what a blockwise matrix product followed
    by the row sums computes before X and Y are known to be the unit rows and their transpose. -/
def lseOfOperands (X : (⟨2, ![8192, 256]⟩ : Shape).Idx → EReal) (Y : (⟨2, ![256, 8192]⟩ : Shape).Idx → EReal)
    (r : Fin 8192) : EReal :=
  two + Ideal.log (∑ c : Fin 8192, Ideal.exp ((∑ d : Fin 256, X (ix2 r d) * Y (ix2 d c)) * two - two))

/-- The same as an [8192, 1] column: entry (r, 0) is `lseOfOperands X Y r`. -/
def lseColumn (X : (⟨2, ![8192, 256]⟩ : Shape).Idx → EReal) (Y : (⟨2, ![256, 8192]⟩ : Shape).Idx → EReal) :
    (⟨2, ![8192, 1]⟩ : Shape).Idx → EReal :=
  fun i => lseOfOperands X Y ⟨(i 0).val, idx2_lt0 i⟩

/-- The sum over the first 4096 rows p of cosine p (p + 4096). -/
def pairSum (a b : Table) : EReal :=
  ∑ p : Fin 4096, ∑ d : Fin 256,
    unit a b (⟨p.val, by have := p.isLt; omega⟩ : Fin 8192) d * unit a b (⟨p.val + 4096, by have := p.isLt; omega⟩ : Fin 8192) d

/-- The loss as the first program forms it. -/
def fixedShiftLoss (a b : Table) : EReal :=
  Ideal.div (-(Ideal.div (two * pairSum a b) half)) count + Ideal.div (∑ r : Fin 8192, rowLse a b r) count

/-! ### The log-softmax with the row maximum -/

/-- The logit of rows r and c. -/
def logit (a b : Table) (r c : Fin 8192) : EReal :=
  Ideal.div (cosine a b r c) half

/-- Row r's largest logit (a maximum started from minus infinity, joined once more with minus infinity). -/
def rowMax (a b : Table) (r : Fin 8192) : EReal :=
  max ninf ((Finset.univ : Finset (Fin 8192)).fold max ninf (fun c => logit a b r c))

/-- Entry (r, c) of the log-softmax of the logits along each row. -/
def logProb (a b : Table) (r c : Fin 8192) : EReal :=
  (logit a b r c - rowMax a b r) - Ideal.log (∑ c' : Fin 8192, Ideal.exp (logit a b r c' - rowMax a b r))

/-- Row r's partner: r + 4096 modulo 8192. -/
def partner (r : Fin 8192) : Fin 8192 := ⟨(r.val + 4096) % 8192, Nat.mod_lt _ (by decide)⟩

/-- The loss as the second program forms it. -/
def softmaxLoss (a b : Table) : EReal :=
  Ideal.div (-(∑ r : Fin 8192, logProb a b r (partner r))) count

/-- Every entry of the table is a real number. -/
def AllReal (a : Table) : Prop := ∀ i, ∃ x : ℝ, a i = (x : EReal)

end Cert.Contrast

end
-- ==== Proof.Literals.lean ====
/-
  The values of the five float words the two programs print, as extended reals: 2, 1/2, 8192,
  minus infinity, and the norm clamp — a positive real (the f32 nearest 1e-8; only its sign matters).
-/
import proofs.«159738_j86492051407169_2_alg».proof.Proof.Spec

noncomputable section

namespace Cert.Contrast

open Idealize.ShloMosaic

theorem two_eq : two = ((2 : ℝ) : EReal) := by
  unfold two; simp [Ideal.ofBits, Ideal.ieee, -EReal.coe_mul]; norm_num

theorem half_eq : half = ((1 / 2 : ℝ) : EReal) := by
  unfold half; simp [Ideal.ofBits, Ideal.ieee, -EReal.coe_mul]; norm_num

theorem count_eq : count = ((8192 : ℝ) : EReal) := by
  unfold count; simp [Ideal.ofBits, Ideal.ieee, -EReal.coe_mul]; norm_num

theorem ninf_eq : ninf = ⊥ := by
  unfold ninf; simp [Ideal.ofBits, Ideal.ieee]

/-- The clamp is a positive real number. -/
theorem eps_pos : ∃ e : ℝ, 0 < e ∧ eps = (e : EReal) := by
  refine ⟨(11258999 : ℝ) * (2 : ℝ) ^ (-50 : ℤ), by positivity, ?_⟩
  unfold eps; simp [Ideal.ofBits, Ideal.ieee, -EReal.coe_mul]

end Cert.Contrast

end
-- ==== Proof.RealLaws.lean ====
/-
  Three facts about real numbers that make the two losses equal.
  * A log-sum-exp does not depend on the shift: s + log (Σ exp (x c - s)) = log (Σ exp (x c)), because
    exp (x - s) = exp (-s) · exp x and the sum of exponentials is positive.
  * Summing a symmetric kernel f r (partner r) over all 8192 rows counts every pair (p, p + 4096) twice.
  * So -(4 · S)/8192 + (Σ_r (2 + log Σ_c exp (2 k r c - 2)))/8192, with S the pair sum, equals
    -(Σ_r (2 k r (partner r) - M r - log Σ_c exp (2 k r c - M r)))/8192 for ANY shifts M r.
-/
import proofs.«159738_j86492051407169_2_alg».proof.Proof.Spec
import Mathlib.Analysis.SpecialFunctions.Log.Basic
import Mathlib.Algebra.BigOperators.Fin

noncomputable section

namespace Cert.Contrast.RealLaws

open Finset

/-- A log-sum-exp does not depend on its shift. -/
theorem shift_add_log_sum_exp {ι : Type*} [Fintype ι] [Nonempty ι] (x : ι → ℝ) (s : ℝ) :
    s + Real.log (∑ c, Real.exp (x c - s)) = Real.log (∑ c, Real.exp (x c)) := by
  have hpos : 0 < ∑ c, Real.exp (x c) := Finset.sum_pos (fun c _ => Real.exp_pos _) Finset.univ_nonempty
  have h : ∑ c, Real.exp (x c - s) = Real.exp (-s) * ∑ c, Real.exp (x c) := by
    rw [Finset.mul_sum]
    refine Finset.sum_congr rfl fun c _ => ?_
    rw [← Real.exp_add]; congr 1; ring
  rw [h, Real.log_mul (Real.exp_pos _).ne' hpos.ne', Real.log_exp]; ring

/-- Over all rows, a symmetric kernel at (row, partner) sums to twice its sum over the pairs (p, p + 4096). -/
theorem sum_partner (f : Fin 8192 → Fin 8192 → ℝ) (hsym : ∀ r c, f r c = f c r) :
    ∑ r : Fin 8192, f r (partner r)
      = 2 * ∑ p : Fin 4096, f (⟨p.val, by have := p.isLt; omega⟩ : Fin 8192) (⟨p.val + 4096, by have := p.isLt; omega⟩ : Fin 8192) := by
  obtain ⟨F, hF⟩ : ∃ F : ℕ → ℝ, ∀ i, F i = if h : i < 8192 then f ⟨i, h⟩ (partner ⟨i, h⟩) else 0 := ⟨_, fun _ => rfl⟩
  have e1 : ∑ r : Fin 8192, f r (partner r) = ∑ r : Fin 8192, F r.val :=
    Finset.sum_congr rfl fun r _ => by rw [hF, dif_pos r.isLt]
  have e2 : ∑ r : Fin 8192, F r.val = ∑ i ∈ range 8192, F i := Fin.sum_univ_eq_sum_range F 8192
  have e3 : ∑ i ∈ range 8192, F i = ∑ i ∈ range 4096, F i + ∑ i ∈ range 4096, F (4096 + i) :=
    Finset.sum_range_add F 4096 4096
  have e4 : ∑ i ∈ range 4096, F i = ∑ p : Fin 4096, F p.val := (Fin.sum_univ_eq_sum_range F 4096).symm
  have e5 : ∑ i ∈ range 4096, F (4096 + i) = ∑ p : Fin 4096, F (4096 + p.val) :=
    (Fin.sum_univ_eq_sum_range (fun i => F (4096 + i)) 4096).symm
  have hsplit : ∑ r : Fin 8192, f r (partner r) = ∑ p : Fin 4096, F p.val + ∑ p : Fin 4096, F (4096 + p.val) :=
    e1.trans (e2.trans (e3.trans (congrArg₂ (· + ·) e4 e5)))
  rw [hsplit, two_mul]
  refine congrArg₂ (· + ·) ?_ ?_
  · refine Finset.sum_congr rfl fun p _ => ?_
    have hp := p.isLt
    have h1 : p.val < 8192 := by omega
    rw [hF, dif_pos h1]
    congr 1
    exact Fin.ext (by simp only [partner]; omega)
  · refine Finset.sum_congr rfl fun p _ => ?_
    have hp := p.isLt
    have h1 : 4096 + p.val < 8192 := by omega
    rw [hF, dif_pos h1, hsym]
    congr 1
    · exact Fin.ext (by simp only [partner]; omega)
    · exact Fin.ext (by simp only []; omega)

/-- The two losses over reals: k the (symmetric) cosines, M any row shifts. -/
theorem losses_agree (k : Fin 8192 → Fin 8192 → ℝ) (hsym : ∀ r c, k r c = k c r) (M : Fin 8192 → ℝ) :
    -(2 * (∑ p : Fin 4096, k (⟨p.val, by have := p.isLt; omega⟩ : Fin 8192) (⟨p.val + 4096, by have := p.isLt; omega⟩ : Fin 8192)) * (1 / (1 / 2))) * (1 / 8192)
        + (∑ r : Fin 8192, (2 + Real.log (∑ c : Fin 8192, Real.exp (k r c * 2 - 2)))) * (1 / 8192)
      = -(∑ r : Fin 8192, ((k r (partner r) * (1 / (1 / 2)) - M r)
            - Real.log (∑ c : Fin 8192, Real.exp (k r c * (1 / (1 / 2)) - M r)))) * (1 / 8192) := by
  have h1 : ∀ r, (2 : ℝ) + Real.log (∑ c : Fin 8192, Real.exp (k r c * 2 - 2))
      = M r + Real.log (∑ c : Fin 8192, Real.exp (k r c * (1 / (1 / 2)) - M r)) := by
    intro r
    rw [shift_add_log_sum_exp (fun c => k r c * 2) 2]
    have hc : ∀ c, k r c * (1 / (1 / 2)) = k r c * 2 := fun c => by norm_num
    simp only [hc]
    exact (shift_add_log_sum_exp (fun c => k r c * 2) (M r)).symm
  have h2 := sum_partner k hsym
  rw [Finset.sum_congr rfl fun r _ => h1 r]
  rw [Finset.sum_sub_distrib, Finset.sum_sub_distrib, Finset.sum_add_distrib, ← Finset.sum_mul, h2]
  ring

end Cert.Contrast.RealLaws

end
-- ==== Proof.LibRealSums.lean ====
/-
  Finite sums of extended reals that are real numbers.

  On the extended reals a product does not distribute over a sum in general (at an infinity the
  sum may absorb a term). Where every entry is a real number it does: the coercion from the reals
  is additive and multiplicative, so a finite sum of real entries is the real sum, a real factor
  moves in and out of it, and a product of three real matrices may be bracketed either way,
  entry by entry.
-/
import Mathlib.Data.EReal.Basic
import Mathlib.Data.EReal.Operations
import Mathlib.Algebra.BigOperators.Ring.Finset
import Mathlib.Algebra.BigOperators.Fin

namespace Cert.Lib.RealSums

open scoped BigOperators

/-- An extended real that is a real number: neither infinity. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rwa [max_eq_right h]
  · rwa [max_eq_left h]

/-- The coercion from the reals carries a finite sum to the finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real entries is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Entries that are all real are the coercions of one real family. -/
theorem exists_real_family {ι : Type*} (f : ι → EReal) (hf : ∀ i, IsReal (f i)) :
    ∃ g : ι → ℝ, ∀ i, f i = (g i : EReal) := ⟨fun i => (hf i).choose, fun i => (hf i).choose_spec⟩

/-- A real factor moves into a finite sum of real entries. -/
theorem mul_sum {ι : Type*} (s : Finset ι) (a : EReal) (f : ι → EReal) (ha : IsReal a)
    (hf : ∀ i, IsReal (f i)) : a * ∑ i ∈ s, f i = ∑ i ∈ s, a * f i := by
  obtain ⟨r, rfl⟩ := ha
  obtain ⟨g, hg⟩ := exists_real_family f hf
  simp only [hg, coe_sum, ← EReal.coe_mul, Finset.mul_sum]

/-- A real factor moves into a finite sum of real entries, from the right. -/
theorem sum_mul {ι : Type*} (s : Finset ι) (a : EReal) (f : ι → EReal) (ha : IsReal a)
    (hf : ∀ i, IsReal (f i)) : (∑ i ∈ s, f i) * a = ∑ i ∈ s, f i * a := by
  obtain ⟨r, rfl⟩ := ha
  obtain ⟨g, hg⟩ := exists_real_family f hf
  simp only [hg, coe_sum, ← EReal.coe_mul, Finset.sum_mul]

/-- Three real matrices: the product may be bracketed either way, entry by entry.
    `∑ j, (∑ k, h k * z k j) * w j = ∑ k, h k * ∑ j, z k j * w j` for one row `h` and one column `w`. -/
theorem dot_assoc {κ ι : Type*} [Fintype κ] [Fintype ι] (h : κ → EReal) (z : κ → ι → EReal) (w : ι → EReal)
    (hh : ∀ k, IsReal (h k)) (hz : ∀ k j, IsReal (z k j)) (hw : ∀ j, IsReal (w j)) :
    ∑ j, (∑ k, h k * z k j) * w j = ∑ k, h k * ∑ j, z k j * w j := by
  obtain ⟨h', eh⟩ := exists_real_family h hh
  obtain ⟨w', ew⟩ := exists_real_family w hw
  have ez : ∀ k, ∃ g : ι → ℝ, ∀ j, z k j = (g j : EReal) := fun k => exists_real_family (z k) (hz k)
  choose z' ez' using ez
  simp only [eh, ew, ez', ← EReal.coe_mul, coe_sum]
  congr 1
  simp only [Finset.sum_mul, Finset.mul_sum]
  rw [Finset.sum_comm]
  exact Finset.sum_congr rfl fun k _ => Finset.sum_congr rfl fun j _ => by ring

/-- A real row against a sum of two real columns. -/
theorem dot_add {κ : Type*} [Fintype κ] (h a b : κ → EReal)
    (hh : ∀ k, IsReal (h k)) (ha : ∀ k, IsReal (a k)) (hb : ∀ k, IsReal (b k)) :
    ∑ k, h k * (a k + b k) = ∑ k, h k * a k + ∑ k, h k * b k := by
  obtain ⟨h', eh⟩ := exists_real_family h hh
  obtain ⟨a', ea⟩ := exists_real_family a ha
  obtain ⟨b', eb⟩ := exists_real_family b hb
  simp only [eh, ea, eb, ← EReal.coe_add, ← EReal.coe_mul, coe_sum]
  congr 1
  rw [← Finset.sum_add_distrib]
  exact Finset.sum_congr rfl fun k _ => by ring

end Cert.Lib.RealSums
-- ==== Proof.Analysis.lean ====
/-
  With real entries every quantity of the specification is a real number, and the two losses agree.
  Choose real witnesses g r d for the stacked table. Then row norms are positive reals (a maximum with a
  positive clamp), unit entries, cosines, logits, the shifted exponentials and their positive sums, both
  logarithms, and the row maximum (a maximum of finitely many reals, over a nonempty row) are reals;
  pushing the coercion outward turns both losses into the two sides of the real identity of RealLaws.
-/
import proofs.«159738_j86492051407169_2_alg».proof.Proof.Spec
import proofs.«159738_j86492051407169_2_alg».proof.Proof.Literals
import proofs.«159738_j86492051407169_2_alg».proof.Proof.RealLaws
import proofs.«159738_j86492051407169_2_alg».proof.Proof.LibRealSums

noncomputable section

namespace Cert.Contrast

open Idealize.ShloMosaic Finset
open Cert.Lib.RealSums (coe_sum)

/-- The coercion of reals into the extended reals is monotone, so it commutes with a maximum. -/
theorem coe_max (x y : ℝ) : ((max x y : ℝ) : EReal) = max (x : EReal) (y : EReal) :=
  EReal.coe_strictMono.monotone.map_max

/-- A maximum, started from minus infinity, of finitely many reals: minus infinity over the empty family, a real otherwise. -/
theorem fold_max_coe {ι : Type*} [DecidableEq ι] (f : ι → ℝ) (s : Finset ι) :
    s.fold max (⊥ : EReal) (fun c => ((f c : ℝ) : EReal)) = ⊥
      ∨ ∃ M : ℝ, s.fold max (⊥ : EReal) (fun c => ((f c : ℝ) : EReal)) = (M : EReal) := by
  induction s using Finset.induction_on with
  | empty => left; simp
  | insert x s hx ih =>
    right
    rw [Finset.fold_insert hx]
    rcases ih with h | ⟨M, h⟩
    · rw [h]; exact ⟨f x, max_bot_right _⟩
    · rw [h, ← coe_max]; exact ⟨_, rfl⟩

variable {a b : Table}

theorem stacked_real (ha : AllReal a) (hb : AllReal b) (r : Fin 8192) (d : Fin 256) :
    ∃ x : ℝ, stacked a b r d = (x : EReal) := by
  unfold stacked; split_ifs
  · exact ha _
  · exact hb _

/-- With real entries the loss with the fixed shift is the loss with the row maximum. -/
theorem loss_eq (ha : AllReal a) (hb : AllReal b) : fixedShiftLoss a b = softmaxLoss a b := by
  choose g hg using stacked_real ha hb
  obtain ⟨e, he, heps⟩ := eps_pos
  -- row norms
  have hn : ∀ r, rowNorm a b r = ((max (Real.sqrt (∑ d : Fin 256, g r d * g r d)) e : ℝ) : EReal) := by
    intro r
    unfold rowNorm
    simp only [hg, ← EReal.coe_mul, coe_sum]
    rw [Ideal.sqrt_coe, if_neg (not_lt.mpr (Finset.sum_nonneg fun d _ => mul_self_nonneg _)), heps, ← coe_max]
  have hnpos : ∀ r, (0 : ℝ) < max (Real.sqrt (∑ d : Fin 256, g r d * g r d)) e := fun r => lt_max_of_lt_right he
  -- unit rows
  have hu : ∀ r d, unit a b r d = ((g r d * (1 / max (Real.sqrt (∑ d : Fin 256, g r d * g r d)) e) : ℝ) : EReal) := by
    intro r d
    unfold unit
    rw [hg, hn, Ideal.div_coe (ne_of_gt (hnpos r)), ← EReal.coe_mul]
  generalize hudef : (fun r d => g r d * (1 / max (Real.sqrt (∑ d : Fin 256, g r d * g r d)) e)) = u at hu
  have hu' : ∀ r d, unit a b r d = ((u r d : ℝ) : EReal) := fun r d => by rw [hu r d, ← hudef]
  clear hu hn hnpos
  -- cosines
  have hk : ∀ r c, cosine a b r c = ((∑ d : Fin 256, u r d * u c d : ℝ) : EReal) := by
    intro r c
    unfold cosine
    simp only [hu', ← EReal.coe_mul, coe_sum]
  generalize hkdef : (fun r c => ∑ d : Fin 256, u r d * u c d) = k at hk
  have hk' : ∀ r c, cosine a b r c = ((k r c : ℝ) : EReal) := fun r c => by rw [hk r c, ← hkdef]
  have hsym : ∀ r c, k r c = k c r := fun r c => by
    rw [← hkdef]; exact Finset.sum_congr rfl fun d _ => mul_comm _ _
  -- the fixed-shift side
  have hse : ∀ r c, shiftedExp a b r c = ((Real.exp (k r c * 2 - 2) : ℝ) : EReal) := by
    intro r c
    unfold shiftedExp
    rw [hk', two_eq, ← EReal.coe_mul, ← EReal.coe_sub, Ideal.exp_coe]
  have hlse : ∀ r, rowLse a b r = ((2 + Real.log (∑ c : Fin 8192, Real.exp (k r c * 2 - 2)) : ℝ) : EReal) := by
    intro r
    unfold rowLse
    simp only [hse, coe_sum]
    rw [Ideal.log_coe, if_neg (not_le.mpr (Finset.sum_pos (fun c _ => Real.exp_pos _) Finset.univ_nonempty)), two_eq,
      ← EReal.coe_add]
  have hps : pairSum a b = ((∑ p : Fin 4096, k (⟨p.val, by have := p.isLt; omega⟩ : Fin 8192) (⟨p.val + 4096, by have := p.isLt; omega⟩ : Fin 8192) : ℝ) : EReal) := by
    unfold pairSum
    simp only [hu', ← EReal.coe_mul, coe_sum]
    rw [← hkdef]
  have hfix : fixedShiftLoss a b
      = ((-(2 * (∑ p : Fin 4096, k (⟨p.val, by have := p.isLt; omega⟩ : Fin 8192) (⟨p.val + 4096, by have := p.isLt; omega⟩ : Fin 8192)) * (1 / (1 / 2))) * (1 / 8192)
        + (∑ r : Fin 8192, (2 + Real.log (∑ c : Fin 8192, Real.exp (k r c * 2 - 2)))) * (1 / 8192) : ℝ) : EReal) := by
    unfold fixedShiftLoss
    simp only [hlse, coe_sum]
    rw [hps, two_eq, half_eq, count_eq, ← EReal.coe_mul, Ideal.div_coe (by norm_num : (1 / 2 : ℝ) ≠ 0), ← EReal.coe_mul,
      ← EReal.coe_neg, Ideal.div_coe (by norm_num : (8192 : ℝ) ≠ 0), Ideal.div_coe (by norm_num : (8192 : ℝ) ≠ 0),
      ← EReal.coe_mul, ← EReal.coe_mul, ← EReal.coe_add]
  -- the row-maximum side
  have hl : ∀ r c, logit a b r c = ((k r c * (1 / (1 / 2)) : ℝ) : EReal) := by
    intro r c
    unfold logit
    rw [hk', half_eq, Ideal.div_coe (by norm_num : (1 / 2 : ℝ) ≠ 0), ← EReal.coe_mul]
  have hM : ∀ r, ∃ M : ℝ, rowMax a b r = (M : EReal) := by
    intro r
    unfold rowMax
    simp only [hl, ninf_eq]
    rcases fold_max_coe (fun c => k r c * (1 / (1 / 2))) (Finset.univ : Finset (Fin 8192)) with h | ⟨M, h⟩
    · exfalso
      have hins : (Finset.univ : Finset (Fin 8192)) = insert (0 : Fin 8192) (Finset.univ.erase 0) := by
        rw [Finset.insert_erase (Finset.mem_univ _)]
      rw [hins, Finset.fold_insert (Finset.notMem_erase _ _)] at h
      have := le_max_left ((k r 0 * (1 / (1 / 2)) : ℝ) : EReal) ((Finset.univ.erase (0 : Fin 8192)).fold max ⊥ fun c => ((k r c * (1 / (1 / 2)) : ℝ) : EReal))
      rw [h] at this
      exact absurd (le_bot_iff.mp this) (EReal.coe_ne_bot _)
    · exact ⟨M, by rw [h, max_bot_left]⟩
  choose M hMr using hM
  have hlp : ∀ r c, logProb a b r c
      = (((k r c * (1 / (1 / 2)) - M r) - Real.log (∑ c' : Fin 8192, Real.exp (k r c' * (1 / (1 / 2)) - M r)) : ℝ) : EReal) := by
    intro r c
    unfold logProb
    simp only [hl, hMr, ← EReal.coe_sub, Ideal.exp_coe, coe_sum]
    rw [Ideal.log_coe, if_neg (not_le.mpr (Finset.sum_pos (fun c _ => Real.exp_pos _) Finset.univ_nonempty)), ← EReal.coe_sub]
  have hsoft : softmaxLoss a b
      = ((-(∑ r : Fin 8192, ((k r (partner r) * (1 / (1 / 2)) - M r)
            - Real.log (∑ c : Fin 8192, Real.exp (k r c * (1 / (1 / 2)) - M r)))) * (1 / 8192) : ℝ) : EReal) := by
    unfold softmaxLoss
    simp only [hlp, coe_sum]
    rw [count_eq, ← EReal.coe_neg, Ideal.div_coe (by norm_num : (8192 : ℝ) ≠ 0), ← EReal.coe_mul]
  rw [hfix, hsoft]
  exact congrArg _ (RealLaws.losses_agree k hsym M)

end Cert.Contrast

end
-- ==== Proof.Finite.lean ====
/-
  The precondition says every entry of both tables is a real number.
  It is printed as: all over the table of (|x| < +inf), for each table, the two joined by "and".
  An "and" of single bits that is 1 has both bits 1; an and-reduction to one entry that is 1 met a 1 at every
  entry; and on the extended reals max x (-x) < +inf holds of neither infinity, so x is a real.
-/
import proofs.«159738_j86492051407169_2_alg».proof.Pre_finite_inputs
import proofs.«159738_j86492051407169_2_alg».proof.Proof.Gen.Pre_finite_inputs
import proofs.«159738_j86492051407169_2_alg».proof.Proof.Spec
import Idealize.ShloMosaic.Lib.ReduceAll
import Idealize.ShloMosaic.Lib.ValueIdx

noncomputable section

namespace Cert.Contrast

open Idealize.ShloMosaic

/-- An extended real whose absolute value compares below the word of +inf is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; revert h; simp [Ideal.cmp]
  | coe r => exact ⟨r, rfl⟩
  | top => exfalso; revert h; simp [Ideal.cmp]

instance : Subsingleton Cert.Pre_finite_inputs.S_.Idx := ⟨fun a b => funext fun d => d.elim0⟩

/-- The printed precondition, all ones, gives real entries in both tables. -/
theorem allReal_of_pre (a b : Table)
    (h : Cert.Pre_finite_inputs.fn (F := Ideal) a b = fun _ => 1#1) : AllReal a ∧ AllReal b := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_inf (a i) (Host.reduce_andi_all _ _ _ _ _ h1 i)
  · exact real_of_abs_lt_inf (b i) (Host.reduce_andi_all _ _ _ _ _ h2 i)

end Cert.Contrast

end
-- ==== Proof.KPointPieces.lean ====
/-
  What one grid point leaves behind, read off the body's stores.

  The kernel body keeps a [1024, 1] column of running row sums in a scratch buffer. Every access of the body covers a
  whole buffer from its origin, so what a buffer holds after the body is the payload of the last store into it, and a
  load returns the whole contents it finds. Writing update(X, Y, s) for the column s plus the row sums of
  exp (2 * (X Y) - 2) over the 2048 columns of the block Y:
    at j = 0        the scratch ends at update(X, Y, zero column)   (zeroed first, read back, updated);
    at j = 1, 2     the scratch ends at update(X, Y, what it held);
    at j = 3        the same, and the output block receives 2 + log of that updated column.
  These hold for any float values: no arithmetic is opened here.
-/
import proofs.«159738_j86492051407169_2_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]

/-- Every access of the body starts at the origin of its buffer. -/
theorem origin2 : (![0, 0] : Fin 2 → Nat) = fun _ => 0 := funext fun a => by fin_cases a <;> rfl

/-- At a grid point with j = 1 or 2 the scratch column ends holding the update of what it held:
    the body's one covering store, whose three loads read whole buffers. -/
theorem scratch_mid (c : Dev nD) (i : grid0.Coords) (a2 : Memref sig .tc .vmem S1024x256 .bf16) (h2 : a2.IsWhole)
    (a3 : Memref sig .tc .vmem S256x2048 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : ¬cond0_1 i)
    (x0 : Vec F S1024x256 .bf16) (x1 : Vec F S256x2048 .bf16) (xs0 : Vec F S1024x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero origin2]
  simp only [View.readAt_eq_ld, h2.read_unread, h3.read_unread, h5.read_unread,
    View.ld_unit_zero (S := S1024x256) origin2, View.ld_unit_zero (S := S256x2048) origin2,
    View.ld_unit_zero (S := S1024x1) origin2]

/-- At a grid point with j = 3 the scratch column is updated in the same way, -/
theorem scratch_last (c : Dev nD) (i : grid0.Coords) (a2 : Memref sig .tc .vmem S1024x256 .bf16) (h2 : a2.IsWhole)
    (a3 : Memref sig .tc .vmem S256x2048 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 : Vec F S1024x256 .bf16) (x1 : Vec F S256x2048 .bf16) (xs0 : Vec F S1024x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero origin2]
  simp only [View.readAt_eq_ld, h2.read_unread, h3.read_unread, h5.read_unread,
    View.ld_unit_zero (S := S1024x256) origin2, View.ld_unit_zero (S := S256x2048) origin2,
    View.ld_unit_zero (S := S1024x1) origin2]

/-- and the output block receives 2 + log of the updated column. -/
theorem out_last (c : Dev nD) (i : grid0.Coords) (a2 : Memref sig .tc .vmem S1024x256 .bf16) (h2 : a2.IsWhole)
    (a3 : Memref sig .tc .vmem S256x2048 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 : Vec F S1024x256 .bf16) (x1 : Vec F S256x2048 .bf16) (xs0 : Vec F S1024x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero origin2, View.readCov_unit_zero (S := S1024x1) _ origin2]
  simp only [View.readAt_eq_ld, h2.read_unread, h3.read_unread, h5.read_unread,
    View.ld_unit_zero (S := S1024x256) origin2, View.ld_unit_zero (S := S256x2048) origin2,
    View.ld_unit_zero (S := S1024x1) origin2]

/-- At a grid point with j = 0 the scratch column is first zeroed, then updated: it ends holding the update of
    the zero column. -/
theorem scratch_first (c : Dev nD) (i : grid0.Coords) (a2 : Memref sig .tc .vmem S1024x256 .bf16) (h2 : a2.IsWhole)
    (a3 : Memref sig .tc .vmem S256x2048 .bf16) (h3 : a3.IsWhole) (a4 : Memref sig .tc .vmem S1024x1 .f32) (h4 : a4.IsWhole)
    (a5 : Memref sig .tc .vmem S1024x1 .f32) (h5 : a5.IsWhole) (hc0 : cond0_0 i) (hc1 : ¬cond0_1 i)
    (x0 : Vec F S1024x256 .bf16) (x1 : Vec F S256x2048 .bf16) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) origin2, View.readCov_unit_zero (S := S1024x1) _ origin2]
  simp only [View.readAt_eq_ld, h2.read_unread, h3.read_unread,
    View.ld_unit_zero (S := S1024x256) origin2, View.ld_unit_zero (S := S256x2048) origin2]

end Cert.KernelIdeal.Val

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KPointPayload.lean ====
/-
  The body's arithmetic, read row by row on the extended reals.

  The scratch column holds one running sum per row of the current [1024, 256] block of the left operand. A grid point
  adds to row p's entry the sum, over the 2048 columns q of the current [256, 2048] block of the right operand, of
  exp (2 * <row p, column q> - 2), where <row p, column q> is the inner product over the 256 shared coordinates: a
  matrix product into a zero accumulator, a scaling and a shift by the constant 2, an exponential, a sum along the
  columns, written back as a column. The first point of a row block starts from the zero column; the last point also
  stores 2 + log of the column. The constant 2 stays the word the program prints.
-/
import proofs.«159738_j86492051407169_2_alg».proof.Proof.Gen.KernelIdeal.Skeleton
import proofs.«159738_j86492051407169_2_alg».proof.Proof.Spec
import proofs.«159738_j86492051407169_2_alg».proof.Proof.LibPlainDot
import proofs.«159738_j86492051407169_2_alg».proof.Proof.LibColumn
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen
open scoped BigOperators

/-- The block product's dimension numbers keep the row on the left operand, -/
theorem dot_lhs_row (j : S1024x2048.Idx) (k : dot_S1024x256_S256x2048_S1024x2048_1_0_0_1_n_n.contr.Idx) :
    (dot_S1024x256_S256x2048_S1024x2048_1_0_0_1_n_n.lhsIdx j k 0).val = (j 0).val := rfl

/-- and the column on the right operand. -/
theorem dot_rhs_col (j : S1024x2048.Idx) (k : dot_S1024x256_S256x2048_S1024x2048_1_0_0_1_n_n.contr.Idx) :
    (dot_S1024x256_S256x2048_S1024x2048_1_0_0_1_n_n.rhsIdx j k 1).val = (j 1).val := rfl

/-- Entry (p, q) of the block product into the zero accumulator: the inner product of row p of the left block with
    column q of the right block. -/
theorem blockProduct_apply (x0 : FVec Ideal S1024x256 .bf16) (x1 : FVec Ideal S256x2048 .bf16) (p : Fin 1024) (q : Fin 2048) :
    matmul dot_S1024x256_S256x2048_S1024x2048_1_0_0_1_n_n none x0 x1 (constant (F := Ideal) S1024x2048 .f32 0x00000000#32) (ix2 p q)
      = ∑ d : Fin 256, x0 (ix2 p d) * x1 (ix2 d q) :=
  Cert.LibPlainDot.matmul_zero_apply dot_S1024x256_S256x2048_S1024x2048_1_0_0_1_n_n rfl rfl dot_lhs_row dot_rhs_col rfl rfl
    none x0 x1 p q

/-- A sum over the 2048 columns of a [1024, 2048] block, read at row p. -/
theorem rowSum_apply (src : FVec Ideal S1024x2048 .f32)
    (hacc : (0x00000000#32 : BitVec 32) = FKind.add.neutral .f32 (.inl rfl)) (p : Fin 1024) :
    multiReduction (F := Ideal) .add [1] S1024 src 0x00000000#32 reduces_S1024x2048_S1024 (.inl rfl) hacc (ix1 p)
      = ∑ q : Fin 2048, src (ix2 p q) := by
  refine (Ideal.multiReduction_add_single src 0x00000000#32 reduces_S1024x2048_S1024 (.inl rfl) hacc (ix1 p)).trans ?_
  refine Finset.sum_congr rfl fun q _ => congrArg src ?_
  funext a
  apply Fin.ext
  match a with
  | ⟨0, _⟩ => rfl
  | ⟨1, _⟩ => rfl

/-- The zero column the first point of a row block stores. -/
theorem zeroColumn_apply (p : Fin 1024) : k0_pay1 (F := Ideal) (ix2 p (0 : Fin 1)) = 0 := by
  unfold k0_pay1
  refine (congrFun (shapeCast_self _ _) _).trans ?_
  exact Ideal.ofBits_zero_f32

/-- The update of the scratch column s by the blocks X0 : [1024, 256] and X1 : [256, 2048], read at row p: s's entry plus
    the sum over the block's 2048 columns q of exp (2 * (row p of X0 · column q of X1) - 2). -/
theorem update_apply (x0 : Vec Ideal S1024x256 .bf16) (x1 : Vec Ideal S256x2048 .bf16) (s : Vec Ideal S1024x1 .f32)
    (p : Fin 1024) :
    k0_pay2 x0 x1 s (ix2 p (0 : Fin 1))
      = (s (ix2 p (0 : Fin 1)) : EReal)
        + ∑ q : Fin 2048, Ideal.exp ((∑ d : Fin 256, (x0 (ix2 p d) : EReal) * x1 (ix2 d q)) * Cert.Contrast.two - Cert.Contrast.two) := by
  unfold k0_pay2
  refine (congrFun (shapeCast_self _ _) _).trans ?_
  refine (addf_apply _ _ _).trans ?_
  refine congrArg (fun y : EReal => (s (ix2 p (0 : Fin 1)) : EReal) + y) ?_
  refine (Cert.LibColumn.shapeCast_a_a1_apply _ _ p (0 : Fin 1)).trans ?_
  refine (rowSum_apply _ _ p).trans ?_
  refine Finset.sum_congr rfl fun q _ => ?_
  show Ideal.exp (_ * Cert.Contrast.two - Cert.Contrast.two) = _
  refine congrArg (fun y : EReal => Ideal.exp (y * Cert.Contrast.two - Cert.Contrast.two)) ?_
  rw [shapeCast_self, shapeCast_self]
  exact blockProduct_apply x0 x1 p q

/-- What the last point of a row block stores into the output: 2 + log of the scratch column, row by row. -/
theorem logShift_apply (s : Vec Ideal S1024x1 .f32) (p : Fin 1024) :
    k0_pay3 s (ix2 p (0 : Fin 1)) = Cert.Contrast.two + Ideal.log (s (ix2 p (0 : Fin 1))) := by
  unfold k0_pay3
  rfl

end Cert.KernelIdeal.Val

end
-- ==== Proof.KPointBlocks.lean ====
/-
  Where the windows sit in their arrays.

  The grid has 8 row blocks by 4 column blocks; point t = 4 i + j. The left operand [8192, 256] is read in row blocks
  of 1024 rows (block i), the right operand [256, 8192] in column blocks of 2048 columns (block j), and the output
  [8192, 1] is written in row blocks of 1024 rows (block i). An entry of a block is the array's entry at
  block index times block size plus the coordinate inside the block, axis by axis. The arrays are the ones the
  kernel finds when it starts; they are never opened here.
-/
import proofs.«159738_j86492051407169_2_alg».proof.Proof.Gen.KernelIdeal.Frame
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The windows' block indices over the grid of 8 row blocks by 4 column blocks, point t = 4 i + j: the left operand's
    and the output's row block is i, the right operand's column block is j. -/
theorem blockIndex : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0)

/-- Entry (p, d) of the left operand's block at point t is entry (1024 (t / 4) + p, d) of the [8192, 256] array. -/
theorem rowsBlock_apply (c : Dev nD) (t : Fin cfg0.N) (p : Fin 1024) (d : Fin 256) (r : Fin 8192)
    (hr : r.val = 1024 * (t.val / 4) + p.val) :
    (iblk m c 0 t : Vec Ideal S1024x256 .bf16) (ix2 p d) = (V m c main_v16 : S8192x256.Idx → EReal) (ix2 r d) := by
  obtain ⟨e0, e1, -, -, -, -⟩ := blockIndex t
  unfold iblk
  rw [View.read_apply]
  show (V m c main_v16 : S8192x256.Idx → EReal) (((cfg0.win 0).blk t).view.emb (ix2 p d)) = _
  refine congrArg (V m c main_v16 : S8192x256.Idx → EReal) ?_
  funext a
  apply Fin.ext
  match a with
  | ⟨0, _⟩ => show win0_0.index t (0 : Fin 2) * 1024 + 1 * p.val = r.val; omega
  | ⟨1, _⟩ => show win0_0.index t (1 : Fin 2) * 256 + 1 * d.val = d.val; omega

/-- Entry (d, q) of the right operand's block at point t is entry (d, 2048 (t % 4) + q) of the [256, 8192] array. -/
theorem colsBlock_apply (c : Dev nD) (t : Fin cfg0.N) (d : Fin 256) (q : Fin 2048) (s : Fin 8192)
    (hs : s.val = 2048 * (t.val % 4) + q.val) :
    (iblk m c 1 t : Vec Ideal S256x2048 .bf16) (ix2 d q) = (V m c main_v17 : S256x8192.Idx → EReal) (ix2 d s) := by
  obtain ⟨-, -, e0, e1, -, -⟩ := blockIndex t
  unfold iblk
  rw [View.read_apply]
  show (V m c main_v17 : S256x8192.Idx → EReal) (((cfg0.win 1).blk t).view.emb (ix2 d q)) = _
  refine congrArg (V m c main_v17 : S256x8192.Idx → EReal) ?_
  funext a
  apply Fin.ext
  match a with
  | ⟨0, _⟩ => show win0_1.index t (0 : Fin 2) * 256 + 1 * d.val = d.val; omega
  | ⟨1, _⟩ => show win0_1.index t (1 : Fin 2) * 2048 + 1 * q.val = s.val; omega

end Cert.KernelIdeal.Val

end
-- ==== Proof.LibChunkSum.lean ====
/-
  A sum taken chunk by chunk. A running total that starts at zero and, at step `c`, adds the sum of the
  `b` consecutive terms `g (b * c), …, g (b * c + b - 1)`, holds after `n` steps the sum of the first
  `b * n` terms. Only commutativity and associativity of addition are used, so the statement holds in any
  additive commutative monoid — in particular on the extended reals, where no finiteness is needed.
-/
import Mathlib.Algebra.BigOperators.Fin

namespace ChunkSum

open Finset

variable {M : Type*} [AddCommMonoid M]

/-- The running total after `c` chunks of `b` terms each, from `init`. -/
def running (b : ℕ) (g : ℕ → M) (init : M) : ℕ → M
  | 0 => init
  | c + 1 => running b g init c + ∑ k : Fin b, g (b * c + k.val)

@[simp] theorem running_zero (b : ℕ) (g : ℕ → M) (init : M) : running b g init 0 = init := rfl

theorem running_succ (b : ℕ) (g : ℕ → M) (init : M) (c : ℕ) :
    running b g init (c + 1) = running b g init c + ∑ k : Fin b, g (b * c + k.val) := rfl

/-- After `n` chunks the running total is `init` plus the sum of the first `b * n` terms. -/
theorem running_eq_range (b : ℕ) (g : ℕ → M) (init : M) (n : ℕ) :
    running b g init n = init + ∑ i ∈ range (b * n), g i := by
  induction n with
  | zero => simp
  | succ c ih =>
    rw [running_succ, ih, Nat.mul_succ, sum_range_add, add_assoc]
    congr 2
    exact Fin.sum_univ_eq_sum_range (fun k => g (b * c + k)) b

/-- The same, with the total written over `Fin N` for `N = b * n`. -/
theorem running_eq_sum (b n N : ℕ) (hN : N = b * n) (g : ℕ → M) (init : M) :
    running b g init n = init + ∑ i : Fin N, g i.val := by
  subst hN
  rw [running_eq_range, Fin.sum_univ_eq_sum_range (fun i => g i) (b * n)]

end ChunkSum
-- ==== Proof.KBlocksSum.lean ====
/-
  The accumulation over the grid.

  For a fixed row block i the four points t = 4 i + j, j = 0 … 3, visit the four column blocks of 2048 columns in
  order. The scratch column is zeroed at j = 0 and each point adds, row by row, the sum of exp (2 * <row, column> - 2)
  over its 2048 columns; so after point 4 i + j row p of the column holds the total, over the first (j + 1) * 2048 columns,
  for row 1024 i + p of the left operand. The totals are taken chunk by chunk; on the extended reals addition is
  commutative and associative, so regrouping four chunks of 2048 into one sum over the 8192 columns needs no
  finiteness. At j = 3 the output block receives 2 + log of the full row sums.
-/
import proofs.«159738_j86492051407169_2_alg».proof.Proof.KPointPieces
import proofs.«159738_j86492051407169_2_alg».proof.Proof.KPointPayload
import proofs.«159738_j86492051407169_2_alg».proof.Proof.KPointBlocks
import proofs.«159738_j86492051407169_2_alg».proof.Proof.LibChunkSum
import proofs.«159738_j86492051407169_2_alg».proof.Proof.Spec

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-- Column n's term of row r's sum, exp (2 * <row r of X, column n of Y> - 2); zero past the 8192 columns, so that the
    terms are indexed by the natural numbers. -/
def colTerm (X : (⟨2, ![8192, 256]⟩ : Shape).Idx → EReal) (Y : (⟨2, ![256, 8192]⟩ : Shape).Idx → EReal) (r : Fin 8192)
    (n : ℕ) : EReal :=
  if h : n < 8192 then
    Ideal.exp ((∑ d : Fin 256, X (ix2 r d) * Y (ix2 d (⟨n, h⟩ : Fin 8192))) * Cert.Contrast.two - Cert.Contrast.two)
  else 0

theorem colTerm_of_lt (X : (⟨2, ![8192, 256]⟩ : Shape).Idx → EReal) (Y : (⟨2, ![256, 8192]⟩ : Shape).Idx → EReal)
    (r : Fin 8192) (n : ℕ) (h : n < 8192) :
    colTerm X Y r n
      = Ideal.exp ((∑ d : Fin 256, X (ix2 r d) * Y (ix2 d (⟨n, h⟩ : Fin 8192))) * Cert.Contrast.two - Cert.Contrast.two) :=
  dif_pos h

/-- One point's update continues row r's running total by one chunk of 2048 columns: if the blocks are rows of X
    (row p of the block being row r) and columns 2048 k … 2048 k + 2047 of Y, and the scratch column holds at row p the
    total over the first k chunks, then the updated column holds at row p the total over the first k + 1 chunks. -/
theorem update_continues (x0 : Vec Ideal S1024x256 .bf16) (x1 : Vec Ideal S256x2048 .bf16) (s : Vec Ideal S1024x1 .f32)
    (X : (⟨2, ![8192, 256]⟩ : Shape).Idx → EReal) (Y : (⟨2, ![256, 8192]⟩ : Shape).Idx → EReal)
    (p : Fin 1024) (r : Fin 8192) (k : ℕ) (hk : k < 4)
    (hx0 : ∀ d : Fin 256, (x0 (ix2 p d) : EReal) = X (ix2 r d))
    (hx1 : ∀ (d : Fin 256) (q : Fin 2048),
      (x1 (ix2 d q) : EReal) = Y (ix2 d (⟨2048 * k + q.val, by have := q.isLt; omega⟩ : Fin 8192)))
    (hs : (s (ix2 p (0 : Fin 1)) : EReal) = ChunkSum.running 2048 (colTerm X Y r) 0 k) :
    k0_pay2 x0 x1 s (ix2 p (0 : Fin 1)) = ChunkSum.running 2048 (colTerm X Y r) 0 (k + 1) := by
  rw [update_apply, ChunkSum.running_succ, hs]
  refine congrArg (fun y : EReal => ChunkSum.running 2048 (colTerm X Y r) 0 k + y) ?_
  refine Finset.sum_congr rfl fun q _ => ?_
  rw [colTerm_of_lt X Y r (2048 * k + q.val) (by have := q.isLt; omega)]
  refine congrArg (fun y : EReal => Ideal.exp (y * Cert.Contrast.two - Cert.Contrast.two)) ?_
  refine Finset.sum_congr rfl fun d _ => ?_
  rw [hx0 d, hx1 d q]

/-- Four chunks of 2048 columns are the whole row: the total after them is the sum over all 8192 columns. -/
theorem fourChunks (X : (⟨2, ![8192, 256]⟩ : Shape).Idx → EReal) (Y : (⟨2, ![256, 8192]⟩ : Shape).Idx → EReal)
    (r : Fin 8192) :
    ChunkSum.running 2048 (colTerm X Y r) 0 4
      = ∑ c : Fin 8192, Ideal.exp ((∑ d : Fin 256, X (ix2 r d) * Y (ix2 d c)) * Cert.Contrast.two - Cert.Contrast.two) := by
  rw [ChunkSum.running_eq_sum 2048 4 8192 (by norm_num) (colTerm X Y r) 0, zero_add]
  exact Finset.sum_congr rfl fun i _ => colTerm_of_lt X Y r i.val i.isLt

variable (m : (ℓ : Loc nD τ sig) → Buf (Elt Ideal) ℓ)

/-- One step of the accumulation at point t = 4 i + j, row p of row block i (row r = 1024 i + p of the array): if, when
    j > 0, the point before left the total over the first j chunks, then point t leaves the total over the first
    j + 1 chunks. At j = 0 the column is zeroed first. -/
theorem scratch_step (c : Dev nD) (t : Fin cfg0.N)
    (ih : ¬ t.val % 4 = 0 → ∀ (p : Fin 1024) (r : Fin 8192), r.val = 1024 * (t.val / 4) + p.val →
      ((outsAt0 m c (t.val - 1) (Nat.lt_of_le_of_lt (Nat.sub_le _ _) t.isLt)).2 : S1024x1.Idx → EReal) (ix2 p (0 : Fin 1))
        = ChunkSum.running 2048 (colTerm (V m c main_v16) (V m c main_v17) r) 0 (t.val % 4))
    (p : Fin 1024) (r : Fin 8192) (hr : r.val = 1024 * (t.val / 4) + p.val) :
    ((outsAt0 m c t.val t.isLt).2 : S1024x1.Idx → EReal) (ix2 p (0 : Fin 1))
      = ChunkSum.running 2048 (colTerm (V m c main_v16) (V m c main_v17) r) 0 (t.val % 4 + 1) := by
  have hk : t.val % 4 < 4 := Nat.mod_lt _ (by norm_num)
  by_cases h0 : t.val % 4 = 0
  · have h1 : ¬ t.val % 4 = 3 := by omega
    rw [outsAt0_A m c t h0 h1]
    dsimp only
    refine (congrFun (scratch_first (F := Ideal) c (grid0.coords t) (ms0_0 t) (hs0_0 t) (ms0_1 t) (hs0_1 t) (ms0_2 t) (hs0_2 t)
      scM0_0 (Memref.isWhole_whole _) ((hcond0_0 t).mpr h0) (fun h => h1 ((hcond0_1 t).mp h)) (iblk m c 0 t) (iblk m c 1 t))
      (ix2 p (0 : Fin 1))).trans ?_
    exact update_continues (iblk m c 0 t) (iblk m c 1 t) (k0_pay1 (F := Ideal)) (V m c main_v16) (V m c main_v17) p r (t.val % 4) hk
      (fun d => rowsBlock_apply m c t p d r hr) (fun d q => colsBlock_apply m c t d q _ rfl)
      ((zeroColumn_apply p).trans (by rw [h0]; rfl))
  · by_cases h1 : t.val % 4 = 3
    · rw [outsAt0_C m c t h0 h1]
      dsimp only
      refine (congrFun (scratch_last (F := Ideal) c (grid0.coords t) (ms0_0 t) (hs0_0 t) (ms0_1 t) (hs0_1 t) (ms0_2 t) (hs0_2 t)
        scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2) (ix2 p (0 : Fin 1))).trans ?_
      exact update_continues (iblk m c 0 t) (iblk m c 1 t) (outsAt0 m c (t.val - 1) (Nat.lt_of_le_of_lt (Nat.sub_le _ _) t.isLt)).2
        (V m c main_v16) (V m c main_v17) p r (t.val % 4) hk
        (fun d => rowsBlock_apply m c t p d r hr) (fun d q => colsBlock_apply m c t d q _ rfl) (ih h0 p r hr)
    · rw [outsAt0_B m c t h0 h1]
      dsimp only
      refine (congrFun (scratch_mid (F := Ideal) c (grid0.coords t) (ms0_0 t) (hs0_0 t) (ms0_1 t) (hs0_1 t) (ms0_2 t) (hs0_2 t)
        scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2) (ix2 p (0 : Fin 1))).trans ?_
      exact update_continues (iblk m c 0 t) (iblk m c 1 t) (outsAt0 m c (t.val - 1) (Nat.lt_of_le_of_lt (Nat.sub_le _ _) t.isLt)).2
        (V m c main_v16) (V m c main_v17) p r (t.val % 4) hk
        (fun d => rowsBlock_apply m c t p d r hr) (fun d q => colsBlock_apply m c t d q _ rfl) (ih h0 p r hr)

/-- THE ACCUMULATION: after point n = 4 i + j the scratch column holds, at row p, row 1024 i + p's total over the
    first j + 1 chunks of 2048 columns. By induction on the point. -/
theorem scratch_after (c : Dev nD) : ∀ (n : ℕ) (h : n < cfg0.N) (p : Fin 1024) (r : Fin 8192),
    r.val = 1024 * (n / 4) + p.val →
    ((outsAt0 m c n h).2 : S1024x1.Idx → EReal) (ix2 p (0 : Fin 1))
      = ChunkSum.running 2048 (colTerm (V m c main_v16) (V m c main_v17) r) 0 (n % 4 + 1) := by
  intro n
  induction n with
  | zero =>
    intro h p r hr
    exact scratch_step m c ⟨0, h⟩ (fun h0 => absurd rfl h0) p r hr
  | succ n ih =>
    intro h p r hr
    refine scratch_step m c ⟨n + 1, h⟩ (fun h0 p' r' hr' => ?_) p r hr
    have h0' : ¬ (n + 1) % 4 = 0 := h0
    have hr'' : r'.val = 1024 * ((n + 1) / 4) + p'.val := hr'
    have e : n % 4 + 1 = (n + 1) % 4 := by omega
    have prev := ih (Nat.lt_of_succ_lt h) p' r' (by omega)
    rw [e] at prev
    exact prev

/-- At a point t = 4 i + 3 the output block receives, at row p, 2 + log of row 1024 i + p's sum over all 8192 columns. -/
theorem out_after (c : Dev nD) (t : Fin cfg0.N) (h3 : t.val % 4 = 3) (p : Fin 1024) (r : Fin 8192)
    (hr : r.val = 1024 * (t.val / 4) + p.val) :
    ((outsAt0 m c t.val t.isLt).1 : S1024x1.Idx → EReal) (ix2 p (0 : Fin 1))
      = Cert.Contrast.lseOfOperands (V m c main_v16) (V m c main_v17) r := by
  have h0 : ¬ t.val % 4 = 0 := by omega
  have hs := scratch_after m c t.val t.isLt p r hr
  have e4 : t.val % 4 + 1 = 4 := by omega
  rw [e4, fourChunks] at hs
  rw [outsAt0_C m c t h0 h3] at hs ⊢
  dsimp only at hs ⊢
  rw [scratch_last (F := Ideal) c (grid0.coords t) (ms0_0 t) (hs0_0 t) (ms0_1 t) (hs0_1 t) (ms0_2 t) (hs0_2 t)
        scM0_0 (Memref.isWhole_whole _) (fun h => h0 ((hcond0_0 t).mp h)) ((hcond0_1 t).mpr h3) (iblk m c 0 t) (iblk m c 1 t)
        (outsAt0 m c (t.val - 1) (Nat.lt_of_le_of_lt (Nat.sub_le _ _) t.isLt)).2] at hs
  refine (congrFun (out_last (F := Ideal) c (grid0.coords t) (ms0_0 t) (hs0_0 t) (ms0_1 t) (hs0_1 t) (ms0_2 t) (hs0_2 t)
        scM0_0 (Memref.isWhole_whole _) (fun h => h0 ((hcond0_0 t).mp h)) ((hcond0_1 t).mpr h3) (iblk m c 0 t) (iblk m c 1 t)
        (outsAt0 m c (t.val - 1) (Nat.lt_of_le_of_lt (Nat.sub_le _ _) t.isLt)).2) (ix2 p (0 : Fin 1))).trans ?_
  refine (logShift_apply _ p).trans ?_
  exact congrArg (fun y : EReal => Cert.Contrast.two + Ideal.log y) hs

end Cert.KernelIdeal.Val

end
-- ==== Proof.KBlocks.lean ====
/-
  From the blocks to the output array.

  The output [8192, 1] is written back in eight blocks of 1024 rows, block i at the point 4 i + 3, the last of the four
  points of row block i. What that point writes back is the block's rows of ONE column of row quantities: entry r is
  2 + log of the sum over the 8192 columns c of exp (2 * <row r of the left operand, column c of the right operand> - 2).
  Row r is covered by the block i = r / 1024, so after the run the whole array is that column.
-/
import proofs.«159738_j86492051407169_2_alg».proof.Proof.KBlocksSum
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- What a point t = 4 i + 3 writes back is rows 1024 i … 1024 i + 1023 of the column of row quantities. -/
theorem flushed_eq (c : Dev nD) (t : Fin cfg0.N) (hf : (cfg0.win 2).flush t = true) :
    (dats m 0 c).flushed 2 t
      = ((cfg0.win 2).blk t).view.read (Elt Ideal) (Cert.Contrast.lseColumn (V m c main_v16) (V m c main_v17)) := by
  have h3 : t.val % 4 = 3 := (flush0_2 t).mp hf
  have ht : t.val < 32 := lt_of_lt_of_eq t.isLt N_0
  obtain ⟨-, -, -, -, e0, e1⟩ := blockIndex t
  show (cfg0.win 2).cut (grid0.coords t) ((dats m 0 c).after 2 t) = _
  rw [after0_2]
  funext j
  obtain ⟨p, u, rfl⟩ : ∃ (p : Fin 1024) (u : Fin 1), j = ix2 p u := ⟨j 0, j 1, eq_ix2 j⟩
  obtain rfl : u = 0 := Subsingleton.elim _ _
  have hp := p.isLt
  rw [View.read_apply]
  show ((outsAt0 m c t.val t.isLt).1 : S1024x1.Idx → EReal) (ix2 p (0 : Fin 1))
    = Cert.Contrast.lseColumn (V m c main_v16) (V m c main_v17) (((cfg0.win 2).blk t).view.emb (ix2 p (0 : Fin 1)))
  refine (out_after m c t h3 p ⟨1024 * (t.val / 4) + p.val, by omega⟩ rfl).trans ?_
  unfold Cert.Contrast.lseColumn
  refine congrArg (Cert.Contrast.lseOfOperands (V m c main_v16) (V m c main_v17)) (Fin.ext ?_)
  show 1024 * (t.val / 4) + p.val = win0_2.index t (0 : Fin 2) * 1024 + 1 * p.val
  omega

/-- An index of the [8192, 1] array is in point t's block iff each coordinate is in the block's range on its axis. -/
theorem mem_block (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v18).slice (win0_2.rect t)).set ↔ _
  rw [View.set_slice_whole, Rect.mem_set_unit]
  exact Iff.rfl

/-- Row r of the array lies in the block written back at point 4 (r / 1024) + 3. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  obtain ⟨t, htv⟩ : ∃ t : Fin cfg0.N, t.val = 4 * ((i 0).val / 1024) + 3 := ⟨⟨4 * ((i 0).val / 1024) + 3, by rw [hN]; omega⟩, rfl⟩
  obtain ⟨-, -, -, -, e0, e1⟩ := blockIndex t
  refine ⟨t, (flush0_2 t).mpr (by rw [htv]; omega), ?_⟩
  rw [mem_block]
  intro a
  match a with
  | ⟨0, _⟩ =>
    show win0_2.index t (0 : Fin 2) * 1024 ≤ (i 0).val ∧ (i 0).val < win0_2.index t (0 : Fin 2) * 1024 + 1024
    rw [e0, htv]; omega
  | ⟨1, _⟩ =>
    show win0_2.index t (1 : Fin 2) * 1 ≤ (i 1).val ∧ (i 1).val < win0_2.index t (1 : Fin 2) * 1 + 1
    rw [e1]; omega

/-- THE KERNEL'S OUTPUT ARRAY: after the run the [8192, 1] array holds, at row r, 2 + log of the sum over the 8192
    columns c of exp (2 * <row r of the left operand, column c of the right operand> - 2). -/
theorem final (m : (ℓ : Loc nD τ sig) → Buf (Elt Ideal) ℓ) (c : Dev nD) :
    (Gen.dats m 0 c).arrAt 2 cfg0.N = Cert.Contrast.lseColumn (Gen.V m c main_v16) (Gen.V m c main_v17) :=
  (dats m 0 c).arrAt_eq_of_cover 2 (Cert.Contrast.lseColumn (V m c main_v16) (V m c main_v17))
    (fun t hf => flushed_eq m c t hf) covered

end Cert.KernelIdeal.Val

end
-- ==== Proof.KTailRead.lean ====
/-
  The operations after the blockwise stage, as one function of the scalar made before it and of the column it writes,
  and that function's value: the loss in the first program's form.

  The column's total is zero plus the sum over every index of an [8192, 1] array, which is the sum over its 8192 rows
  (the second axis has one coordinate). Everything else is pointwise on scalars, in the order the specification writes it.
-/
import proofs.«159738_j86492051407169_2_alg».proof.Proof.Gen.KernelIdeal
import proofs.«159738_j86492051407169_2_alg».proof.Proof.Spec
import Idealize.ShloMosaic.Lib.ValueIdx
import Idealize.ShloMosaic.PureOps.Ideal.Laws

noncomputable section

namespace Cert.KernelIdeal.Val

open Idealize.ShloMosaic Idealize.ShloMosaic.ValueIdx
open Cert.KernelIdeal Cert.KernelIdeal.Gen

/-! ### The operations after the blockwise stage -/

/-- What the program forms from the scalar `s` made before the blockwise stage and the column `col` the stage
    writes: `(-(s / (1/2))) / 8192 + (0 + the sum of every entry of col) / 8192`. -/
def tailScalar (s : FVec Ideal S_ .f32) (col : FVec Ideal S8192x1 .f32) : FVec Ideal S_ .f32 :=
  addf (F := Ideal)
    (Host.divf (F := Ideal)
      (Host.negf (F := Ideal) (Host.divf (F := Ideal) s (constant (F := Ideal) S_ .f32 0x3F000000#32)))
      (constant (F := Ideal) S_ .f32 0x46000000#32))
    (Host.divf (F := Ideal)
      (Host.reduceAdd (F := Ideal) col (constant (F := Ideal) S_ .f32 0x00000000#32) reducesTo_S8192x1_S_d0_1 h_S_)
      (constant (F := Ideal) S_ .f32 0x46000000#32))

/-- The sum of every entry of an [8192, 1] column, started from zero, is the sum over its 8192 rows. -/
theorem columnSum_apply (col : FVec Ideal S8192x1 .f32) (i : S_.Idx) :
    Host.reduceAdd (F := Ideal) col (constant (F := Ideal) S_ .f32 0x00000000#32) reducesTo_S8192x1_S_d0_1 h_S_ i
      = ∑ r : Fin 8192, col (ix2 r (0 : Fin 1)) := by
  refine (Ideal.hostReduceAdd_total reducesTo_S8192x1_S_d0_1 (fun b => b.elim0) col _ i).trans ?_
  rw [show (constant (F := Ideal) S_ .f32 0x00000000#32 (Shape.Idx.first h_S_)) = (0 : EReal) from Ideal.ofBits_zero_f32, zero_add]
  refine (sum_idx2 (n0 := 8192) (n1 := 1) col).trans (Finset.sum_congr rfl fun r _ => ?_)
  exact Fin.sum_univ_one _

/-- With the scalar twice the partner sum and the column the rows' log-sum-exps, the result is the loss in the
    first program's form: the two sides are the same operations in the same order. -/
theorem tailScalar_apply (a b : Cert.Contrast.Table) (s : FVec Ideal S_ .f32) (col : FVec Ideal S8192x1 .f32)
    (hs : ∀ i, s i = Cert.Contrast.two * Cert.Contrast.pairSum a b)
    (hcol : ∀ r : Fin 8192, col (ix2 r (0 : Fin 1)) = Cert.Contrast.rowLse a b r) (i : S_.Idx) :
    tailScalar s col i = Cert.Contrast.fixedShiftLoss a b := by
  unfold tailScalar
  show Ideal.div (-(Ideal.div (s i) (Ideal.ofBits .f32 0x3F000000#32))) (Ideal.ofBits .f32 0x46000000#32)
      + Ideal.div (Host.reduceAdd (F := Ideal) col (constant (F := Ideal) S_ .f32 0x00000000#32) reducesTo_S8192x1_S_d0_1 h_S_ i)
          (Ideal.ofBits .f32 0x46000000#32) = _
  rw [columnSum_apply, hs i, Finset.sum_congr rfl fun r _ => hcol r]
  rfl

end Cert.KernelIdeal.Val

end
-- ==== Proof.KHostDefs.lean ====
/-
  The operations the first program performs on the two tables before its blockwise stage, written as functions
  of the tables: each table's rows are divided by their Euclidean norms clamped below at a small positive
  constant; the two unit tables are stacked into 8192 rows and the stack is also transposed; and twice the
  sum of the inner products of corresponding unit rows is formed as a scalar.
-/
import proofs.«159738_j86492051407169_2_alg».proof.Proof.Gen.KernelIdeal
import Idealize.ShloMosaic.Lib.ValueIdx

noncomputable section

namespace Cert.KernelIdeal.Val

open Idealize.ShloMosaic Idealize.ShloMosaic.ValueIdx
open Cert.KernelIdeal Cert.KernelIdeal.Gen

/-! ### The operations before the region, as functions of the two tables -/

/-- The column of Euclidean row norms of a table: per row, the square root of zero plus the sum of the squared entries. -/
def normColumn (x : FVec Ideal S4096x256 .f32) : FVec Ideal S4096x1 .f32 :=
  Host.sqrt (F := Ideal) (broadcastInDim S4096x1 ![0] bcast_S4096_S4096x1_0
    (Host.reduceAdd (F := Ideal) (mulf (F := Ideal) x x) (constant (F := Ideal) S_ .f32 0x00000000#32)
      reducesTo_S4096x256_S4096_d1 h_S_))

/-- The norms clamped below at the small positive constant. -/
def clampedColumn (x : FVec Ideal S4096x256 .f32) : FVec Ideal S4096x1 .f32 :=
  maximumf (F := Ideal) (normColumn x)
    (broadcastInDim S4096x1 ![] bcast_S_S4096x1 (constant (F := Ideal) S_ .f32 0x322BCC77#32))

/-- A table with every row divided by its clamped norm. -/
def unitTable (x : FVec Ideal S4096x256 .f32) : FVec Ideal S4096x256 .f32 :=
  Host.divf (F := Ideal) x (broadcastInDim S4096x256 ![0, 1] bcast_S4096x1_S4096x256_0_1 (clampedColumn x))

/-- The two unit tables stacked into 8192 rows (the change of format on the way is the identity). -/
def stackedUnits (a b : FVec Ideal S4096x256 .f32) : FVec Ideal S8192x256 .bf16 :=
  concatenate S8192x256 0
    [⟨S4096x256, truncf (F := Ideal) .bf16 (unitTable a) bitsLt_bf16_f32⟩,
     ⟨S4096x256, truncf (F := Ideal) .bf16 (unitTable b) bitsLt_bf16_f32⟩]
    concatenates_S4096x256_S4096x256_S8192x256_d0

/-- The stacked unit rows transposed. -/
def stackedUnitsT (a b : FVec Ideal S4096x256 .f32) : FVec Ideal S256x8192 .bf16 :=
  transpose S256x8192 [1, 0] (stackedUnits a b) transposes_S8192x256_S256x8192_1_0

/-- Twice the sum over the rows of the inner products of the two tables' unit rows, as the program forms it:
    2 times (0 + the sum over p of (0 + the sum over d of the product)). -/
def pairScalar (a b : FVec Ideal S4096x256 .f32) : FVec Ideal S_ .f32 :=
  mulf (F := Ideal) (constant (F := Ideal) S_ .f32 0x40000000#32)
    (Host.reduceAdd (F := Ideal)
      (Host.reduceAdd (F := Ideal) (mulf (F := Ideal) (unitTable a) (unitTable b))
        (constant (F := Ideal) S_ .f32 0x00000000#32) reducesTo_S4096x256_S4096_d1 h_S_)
      (constant (F := Ideal) S_ .f32 0x00000000#32) reducesTo_S4096_S_d0 h_S_)

end Cert.KernelIdeal.Val

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.KHostRunPair.lean ====
/-
  The scalar formed before the blockwise stage is twice the double sum of the products of the two unit tables.

  The contents of a buffer when the blockwise stage is entered are the fold of the earlier operations over the launch
  memory; reading that fold at one buffer leaves the operations' functions applied to the two argument tables.
-/
import proofs.«159738_j86492051407169_2_alg».proof.Proof.Gen.KernelIdeal.Frame.Runs
import proofs.«159738_j86492051407169_2_alg».proof.Proof.KHostDefs
import proofs.«159738_j86492051407169_2_alg».proof.Proof.LibTypedRef

noncomputable section

namespace Cert.KernelIdeal.Val

open Idealize.ShloMosaic Idealize.ShloMosaic.ValueIdx
open Cert.KernelIdeal Cert.KernelIdeal.Gen

set_option maxHeartbeats 4000000 in
/-- When the blockwise stage is entered, the scalar buffer holds twice the sum of the unit tables' products. -/
theorem V_main_v13_eq (m : (ℓ : Loc nD τ sig) → Buf (Elt Ideal) ℓ) (c : Dev nD) :
    (Gen.V m c main_v13 : S_.Idx → EReal)
      = pairScalar (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTypedRef.ofBuf_toBuf]
  rfl

end Cert.KernelIdeal.Val

end
-- ==== Proof.KHostRunRows.lean ====
/-
  The stacked operand of the blockwise stage is the stack of the two unit tables.

  The contents of a buffer when the blockwise stage is entered are the fold of the earlier operations over the launch
  memory; reading that fold at one buffer leaves the operations' functions applied to the two argument tables.
-/
import proofs.«159738_j86492051407169_2_alg».proof.Proof.Gen.KernelIdeal.Frame.Runs
import proofs.«159738_j86492051407169_2_alg».proof.Proof.KHostDefs
import proofs.«159738_j86492051407169_2_alg».proof.Proof.LibTypedRef

noncomputable section

namespace Cert.KernelIdeal.Val

open Idealize.ShloMosaic Idealize.ShloMosaic.ValueIdx
open Cert.KernelIdeal Cert.KernelIdeal.Gen

set_option maxHeartbeats 4000000 in
/-- When the blockwise stage is entered, its row operand holds the two unit tables stacked. -/
theorem V_main_v16_eq (m : (ℓ : Loc nD τ sig) → Buf (Elt Ideal) ℓ) (c : Dev nD) :
    (Gen.V m c main_v16 : S8192x256.Idx → EReal)
      = stackedUnits (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTypedRef.ofBuf_toBuf]
  rfl

end Cert.KernelIdeal.Val

end
-- ==== Proof.KHostRunCols.lean ====
/-
  The transposed operand of the blockwise stage is the transpose of the stack of the two unit tables.

  The contents of a buffer when the blockwise stage is entered are the fold of the earlier operations over the launch
  memory; reading that fold at one buffer leaves the operations' functions applied to the two argument tables.
-/
import proofs.«159738_j86492051407169_2_alg».proof.Proof.Gen.KernelIdeal.Frame.Runs
import proofs.«159738_j86492051407169_2_alg».proof.Proof.KHostDefs
import proofs.«159738_j86492051407169_2_alg».proof.Proof.LibTypedRef

noncomputable section

namespace Cert.KernelIdeal.Val

open Idealize.ShloMosaic Idealize.ShloMosaic.ValueIdx
open Cert.KernelIdeal Cert.KernelIdeal.Gen

set_option maxHeartbeats 4000000 in
/-- When the blockwise stage is entered, its column operand holds the transposed stack of the two unit tables. -/
theorem V_main_v17_eq (m : (ℓ : Loc nD τ sig) → Buf (Elt Ideal) ℓ) (c : Dev nD) :
    (Gen.V m c main_v17 : S256x8192.Idx → EReal)
      = stackedUnitsT (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  simp only [Cert.LibTypedRef.ofBuf_toBuf]
  rfl

end Cert.KernelIdeal.Val

end
-- ==== Proof.LibConcatRows.lean ====
/-
  Two tables with the same columns stacked one above the other, read at an entry.

  An [a, C] table and a [b, C] table concatenated along the first axis give a [c, C] table (c = a + b) that holds,
  at row `k` and column `q`, the first table's entry (k, q) when k < a, and the second table's entry (k - a, q) from
  row a on. Both are the general two-piece reads with the piece's index named coordinate by coordinate.
-/
import Idealize.ShloMosaic.Lib.Pipeline.Value
import Idealize.ShloMosaic.Lib.ValueIdx

noncomputable section

namespace Cert.LibConcatRows

open Idealize.ShloMosaic Idealize.ShloMosaic.ValueIdx

variable {α : Type}

/-- Above the seam the stacked table reads the first table at the same row and column. -/
theorem concat_rows_apply_top {a b c C : ℕ} (X : (⟨2, ![a, C]⟩ : Shape).Idx → α) (Y : (⟨2, ![b, C]⟩ : Shape).Idx → α)
    (h : Shape.Concatenates [⟨2, ![a, C]⟩, ⟨2, ![b, C]⟩] ⟨2, ![c, C]⟩ 0) (k : Fin c) (q : Fin C) (hk : k.val < a) :
    concatenate ⟨2, ![c, C]⟩ 0 [⟨⟨2, ![a, C]⟩, X⟩, ⟨⟨2, ![b, C]⟩, Y⟩] h (ix2 k q) = X (ix2 ⟨k.val, hk⟩ q) :=
  concatenate_pair_apply_left 0 X Y h (ix2 k q) rfl (ix2 ⟨k.val, hk⟩ q)
    (fun ax => match ax with | ⟨0, _⟩ => rfl | ⟨1, _⟩ => rfl)

/-- From the seam on the stacked table reads the second table at the same column, the row the first height less. -/
theorem concat_rows_apply_bottom {a b c C : ℕ} (X : (⟨2, ![a, C]⟩ : Shape).Idx → α) (Y : (⟨2, ![b, C]⟩ : Shape).Idx → α)
    (h : Shape.Concatenates [⟨2, ![a, C]⟩, ⟨2, ![b, C]⟩] ⟨2, ![c, C]⟩ 0) (k : Fin c) (q : Fin C) (hk : a ≤ k.val)
    (hkb : k.val - a < b) :
    concatenate ⟨2, ![c, C]⟩ 0 [⟨⟨2, ![a, C]⟩, X⟩, ⟨⟨2, ![b, C]⟩, Y⟩] h (ix2 k q) = Y (ix2 ⟨k.val - a, hkb⟩ q) :=
  concatenate_pair_apply_right 0 X Y h (ix2 k q) rfl rfl (ix2 ⟨k.val - a, hkb⟩ q)
    (fun ax hax => match ax, hax with
      | ⟨0, _⟩, hax => absurd rfl hax
      | ⟨1, _⟩, _ => rfl)
    (by show (k.val - a) + a = k.val; omega)

end Cert.LibConcatRows

end
-- ==== Proof.KHostRead.lean ====
/-
  The operations before the blockwise stage read entry by entry, and joined to the specification.

  Row p of a unit table is the table's row divided by the larger of its Euclidean norm and the clamp. In the stack of the
  two unit tables, row r comes from the first table when r < 4096 and from the second, 4096 rows up, otherwise: exactly
  the specification's unit row r. The scalar is the constant 2 times the sum, over the first 4096 rows, of the inner
  products of row p and row p + 4096.
-/
import proofs.«159738_j86492051407169_2_alg».proof.Proof.KHostDefs
import proofs.«159738_j86492051407169_2_alg».proof.Proof.Spec
import proofs.«159738_j86492051407169_2_alg».proof.Proof.LibConcatRows
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx
open Cert.KernelIdeal Cert.KernelIdeal.Gen

/-! ### The operations before the region read at an index

Every stage is read over literal coordinates: a row sum as zero plus the sum over the 256 columns, a column broadcast along a
row as the column's entry of that row, the splat of a scalar as the scalar, the stack of two tables by the half its row falls in. -/

/-- A row sum started from zero: entry p is the sum over the columns d of the entry (p, d). -/
theorem tableRowSum_apply (y : FVec Ideal S4096x256 .f32) (p : Fin 4096) :
    Host.reduceAdd (F := Ideal) y (constant (F := Ideal) S_ .f32 0x00000000#32) reducesTo_S4096x256_S4096_d1 h_S_ (ix1 p)
      = ∑ d : Fin 256, y (ix2 p d) := by
  have h : S4096x256.Reduces [1] S4096 := by decide
  refine (Ideal.hostReduceAdd_single reducesTo_S4096x256_S4096_d1 h y _ (ix1 p)).trans ?_
  rw [show (constant (F := Ideal) S_ .f32 0x00000000#32 (Shape.Idx.first h_S_)) = (0 : EReal) from Ideal.ofBits_zero_f32, zero_add]
  exact Finset.sum_congr rfl fun d _ => congrArg y (funext fun a => Fin.ext (by
    match a with
    | ⟨0, _⟩ => rfl
    | ⟨1, _⟩ => rfl))

/-- The indices of a vector of 4096 entries are its one coordinate's values. -/
def vecIdxEquiv : (⟨1, ![4096]⟩ : Shape).Idx ≃ Fin 4096 where
  toFun i := i 0
  invFun p := ix1 p
  left_inv i := (eq_ix1 i).symm
  right_inv _ := rfl

/-- A sum of a vector of 4096 entries started from zero is the sum of its entries. -/
theorem vecSum_apply (y : FVec Ideal S4096 .f32) (i : S_.Idx) :
    Host.reduceAdd (F := Ideal) y (constant (F := Ideal) S_ .f32 0x00000000#32) reducesTo_S4096_S_d0 h_S_ i
      = ∑ p : Fin 4096, y (ix1 p) := by
  refine (Ideal.hostReduceAdd_total reducesTo_S4096_S_d0 (fun b => b.elim0) y _ i).trans ?_
  rw [show (constant (F := Ideal) S_ .f32 0x00000000#32 (Shape.Idx.first h_S_)) = (0 : EReal) from Ideal.ofBits_zero_f32, zero_add]
  exact (Equiv.sum_comp vecIdxEquiv.symm y).symm

/-- Entry (p, u) of the norm column is the square root of row p's sum of squares. -/
theorem normColumn_apply (x : FVec Ideal S4096x256 .f32) (p : Fin 4096) (u : Fin 1) :
    normColumn x (ix2 p u) = Ideal.sqrt (∑ d : Fin 256, x (ix2 p d) * x (ix2 p d)) := by
  unfold normColumn
  show Ideal.sqrt (broadcastInDim (s := S4096) S4096x1 ![0] bcast_S4096_S4096x1_0 _ (ix2 p u)) = _
  refine congrArg Ideal.sqrt ?_
  refine (broadcastInDim_apply (s := S4096) (t := S4096x1) ![0] bcast_S4096_S4096x1_0 _ (ix2 p u) (ix1 p) (fun a => by
    match a with
    | ⟨0, _⟩ => rfl)).trans ?_
  exact tableRowSum_apply (mulf (F := Ideal) x x) p

/-- Entry (p, u) of the clamped column is the larger of the norm and the clamp. -/
theorem clampedColumn_apply (x : FVec Ideal S4096x256 .f32) (p : Fin 4096) (u : Fin 1) :
    clampedColumn x (ix2 p u) = max (Ideal.sqrt (∑ d : Fin 256, x (ix2 p d) * x (ix2 p d))) Cert.Contrast.eps := by
  unfold clampedColumn
  show max (normColumn x (ix2 p u)) (broadcastInDim (s := S_) S4096x1 ![] bcast_S_S4096x1 _ (ix2 p u)) = _
  rw [normColumn_apply]
  refine congrArg (max _) ?_
  exact broadcastInDim_apply (s := S_) (t := S4096x1) ![] bcast_S_S4096x1 _ (ix2 p u) ix0 (fun a => a.elim0)

/-- Entry (p, d) of the unit table is the entry divided by row p's clamped norm. -/
theorem unitTable_apply (x : FVec Ideal S4096x256 .f32) (p : Fin 4096) (d : Fin 256) :
    unitTable x (ix2 p d)
      = Ideal.div (x (ix2 p d)) (max (Ideal.sqrt (∑ e : Fin 256, x (ix2 p e) * x (ix2 p e))) Cert.Contrast.eps) := by
  unfold unitTable
  show Ideal.div (x (ix2 p d)) (broadcastInDim (s := S4096x1) S4096x256 ![0, 1] bcast_S4096x1_S4096x256_0_1 _ (ix2 p d)) = _
  refine congrArg (Ideal.div _) ?_
  refine (broadcastInDim_apply (s := S4096x1) (t := S4096x256) ![0, 1] bcast_S4096x1_S4096x256_0_1 _ (ix2 p d) (ix2 p (0 : Fin 1)) (fun a => by
    match a with
    | ⟨0, _⟩ => rfl
    | ⟨1, _⟩ => rfl)).trans ?_
  exact clampedColumn_apply x p 0

/-- A unit row of the stacked tables from the first half is the first table's unit row. -/
theorem unit_of_top (a b : Cert.Contrast.Table) (p : Fin 4096) (r : Fin 8192) (d : Fin 256) (hr : r.val = p.val) :
    Cert.Contrast.unit a b r d = unitTable a (ix2 p d) := by
  have h : r.val < 4096 := by have := p.isLt; omega
  have e : (⟨r.val, h⟩ : Fin 4096) = p := Fin.ext hr
  rw [unitTable_apply]
  unfold Cert.Contrast.unit Cert.Contrast.rowNorm Cert.Contrast.stacked
  simp only [dif_pos h, e]

/-- A unit row of the stacked tables from the second half is the second table's unit row, 4096 rows up. -/
theorem unit_of_bottom (a b : Cert.Contrast.Table) (p : Fin 4096) (r : Fin 8192) (d : Fin 256) (hr : r.val = p.val + 4096) :
    Cert.Contrast.unit a b r d = unitTable b (ix2 p d) := by
  have h : ¬ r.val < 4096 := by omega
  have e : (⟨r.val - 4096, by have := r.isLt; omega⟩ : Fin 4096) = p := Fin.ext (by show r.val - 4096 = p.val; omega)
  rw [unitTable_apply]
  unfold Cert.Contrast.unit Cert.Contrast.rowNorm Cert.Contrast.stacked
  simp only [dif_neg h, e]

/-- From row 4096 on, two [4096, 256] tables stacked read the second table 4096 rows up. -/
theorem stack_bottom {α : Type} (X Y : (⟨2, ![4096, 256]⟩ : Shape).Idx → α)
    (h : Shape.Concatenates [⟨2, ![4096, 256]⟩, ⟨2, ![4096, 256]⟩] ⟨2, ![8192, 256]⟩ 0)
    (r : Fin 8192) (p : Fin 4096) (q : Fin 256) (hr : r.val = p.val + 4096) :
    concatenate ⟨2, ![8192, 256]⟩ 0 [⟨⟨2, ![4096, 256]⟩, X⟩, ⟨⟨2, ![4096, 256]⟩, Y⟩] h (ix2 r q) = Y (ix2 p q) :=
  concatenate_pair_apply_right 0 X Y h (ix2 r q) rfl rfl (ix2 p q)
    (fun ax hax => match ax, hax with
      | ⟨0, _⟩, hax => absurd rfl hax
      | ⟨1, _⟩, _ => rfl)
    (by show p.val + 4096 = r.val; omega)

/-- Entry (r, d) of the stacked unit tables is the specification's unit row entry. -/
theorem stackedUnits_apply (a b : FVec Ideal S4096x256 .f32) (r : Fin 8192) (d : Fin 256) :
    stackedUnits a b (ix2 r d) = Cert.Contrast.unit a b r d := by
  unfold stackedUnits
  by_cases h : r.val < 4096
  · refine (Cert.LibConcatRows.concat_rows_apply_top _ _ concatenates_S4096x256_S4096x256_S8192x256_d0 r d h).trans ?_
    exact (unit_of_top a b ⟨r.val, h⟩ r d rfl).symm
  · obtain ⟨p, hp⟩ : ∃ p : Fin 4096, r.val = p.val + 4096 :=
      ⟨⟨r.val - 4096, by have := r.isLt; omega⟩, by show r.val = r.val - 4096 + 4096; omega⟩
    refine (stack_bottom _ _ concatenates_S4096x256_S4096x256_S8192x256_d0 r p d hp).trans ?_
    exact (unit_of_bottom a b p r d hp).symm

/-- Entry (d, r) of the transposed stack is the specification's unit row entry (r, d). -/
theorem stackedUnitsT_apply (a b : FVec Ideal S4096x256 .f32) (d : Fin 256) (r : Fin 8192) :
    stackedUnitsT a b (ix2 d r) = Cert.Contrast.unit a b r d := by
  unfold stackedUnitsT
  exact (transpose_ix2_apply _ transposes_S8192x256_S256x8192_1_0 d r).trans (stackedUnits_apply a b r d)

/-- The scalar formed before the region is twice the sum of the partner inner products. -/
theorem pairScalar_apply (a b : FVec Ideal S4096x256 .f32) (i : S_.Idx) :
    pairScalar a b i = Cert.Contrast.two * Cert.Contrast.pairSum a b := by
  unfold pairScalar
  show Ideal.ofBits .f32 0x40000000#32 * _ = _
  unfold Cert.Contrast.two Cert.Contrast.pairSum
  refine congrArg (Ideal.ofBits .f32 0x40000000#32 * ·) ?_
  refine (vecSum_apply _ i).trans (Finset.sum_congr rfl fun p _ => ?_)
  refine (tableRowSum_apply _ p).trans (Finset.sum_congr rfl fun d _ => ?_)
  show unitTable a (ix2 p d) * unitTable b (ix2 p d) = _
  rw [unit_of_top a b p _ d rfl, unit_of_bottom a b p _ d rfl]

end Cert.KernelIdeal.Val

end
-- ==== Proof.KHostOperands.lean ====
/-
  The two operands of the blockwise stage are the specification's unit rows and their transpose, so the row
  quantity the stage forms from them is the specification's log-sum-exp with the fixed shift.
-/
import proofs.«159738_j86492051407169_2_alg».proof.Proof.KHostRunRows
import proofs.«159738_j86492051407169_2_alg».proof.Proof.KHostRunCols
import proofs.«159738_j86492051407169_2_alg».proof.Proof.KHostRead

noncomputable section

namespace Cert.KernelIdeal.Val

open Idealize.ShloMosaic Idealize.ShloMosaic.ValueIdx
open Cert.KernelIdeal Cert.KernelIdeal.Gen

/-- Entry (r, d) of the blockwise stage's row operand is the specification's unit row entry. -/
theorem operand_rows (m : (ℓ : Loc nD τ sig) → Buf (Elt Ideal) ℓ) (c : Dev nD) (r : Fin 8192) (d : Fin 256) :
    Gen.V m c main_v16 (ix2 r d)
      = Cert.Contrast.unit (m ((c.tc : Thread nD τ).loc main_arg0)) (m ((c.tc : Thread nD τ).loc main_arg1)) r d :=
  (congrFun (V_main_v16_eq m c) (ix2 r d)).trans (stackedUnits_apply _ _ r d)

/-- Entry (d, r) of the blockwise stage's column operand is the specification's unit row entry (r, d). -/
theorem operand_cols (m : (ℓ : Loc nD τ sig) → Buf (Elt Ideal) ℓ) (c : Dev nD) (d : Fin 256) (r : Fin 8192) :
    Gen.V m c main_v17 (ix2 d r)
      = Cert.Contrast.unit (m ((c.tc : Thread nD τ).loc main_arg0)) (m ((c.tc : Thread nD τ).loc main_arg1)) r d :=
  (congrFun (V_main_v17_eq m c) (ix2 d r)).trans (stackedUnitsT_apply _ _ d r)

/-- Over these two operands the row quantity of the blockwise stage is the specification's log-sum-exp of the row:
    the inner products of the row operand's rows with the column operand's columns are the cosines. -/
theorem lseColumn_eq (m : (ℓ : Loc nD τ sig) → Buf (Elt Ideal) ℓ) (c : Dev nD) (i : (⟨2, ![8192, 1]⟩ : Shape).Idx) :
    Cert.Contrast.lseColumn (Gen.V m c main_v16) (Gen.V m c main_v17) i
      = Cert.Contrast.rowLse (m ((c.tc : Thread nD τ).loc main_arg0)) (m ((c.tc : Thread nD τ).loc main_arg1))
          ⟨(i 0).val, ValueIdx.idx2_lt0 i⟩ := by
  show Cert.Contrast.lseOfOperands _ _ _ = _
  unfold Cert.Contrast.lseOfOperands Cert.Contrast.rowLse Cert.Contrast.shiftedExp Cert.Contrast.cosine
  refine congrArg (fun z => Cert.Contrast.two + Ideal.log z) (Finset.sum_congr rfl fun c' _ => ?_)
  refine congrArg (fun z => Ideal.exp (z * Cert.Contrast.two - Cert.Contrast.two)) (Finset.sum_congr rfl fun d _ => ?_)
  exact congrArg₂ (· * ·) (operand_rows m c _ d) (operand_cols m c d c')

end Cert.KernelIdeal.Val

end
-- ==== Proof.KTailRun.lean ====
/-
  The first program's run and its result.

  After the blockwise stage the program divides the scalar made before it by 1/2, negates, divides by 8192, and adds the
  total of the stage's output column divided by 8192. The stage's output array is the column of the rows' log-sum-exps
  over the two operands, which are the unit rows and their transpose; the scalar is twice the partner sum. So the result
  is the loss in the first program's form, for all extended-real tables.
-/
import proofs.«159738_j86492051407169_2_alg».proof.Proof.Gen.KernelIdeal.Frame
import proofs.«159738_j86492051407169_2_alg».proof.Proof.KTailRead
import proofs.«159738_j86492051407169_2_alg».proof.Proof.KHostRunPair
import proofs.«159738_j86492051407169_2_alg».proof.Proof.KHostOperands
import proofs.«159738_j86492051407169_2_alg».proof.Proof.KHostRead

noncomputable section

namespace Cert.KernelIdeal.Val

open Idealize.ShloMosaic Idealize.ShloMosaic.ValueIdx
open Cert.KernelIdeal Cert.KernelIdeal.Gen

/-- After the whole program, the result buffer holds the tail operations applied to the scalar made before the blockwise
    stage and to the column that stage leaves: the stage's output array is read where the stage wrote it, the scalar's
    buffer is no array of the stage and keeps its contents. -/
theorem tail_eq (m : (ℓ : Loc nD τ sig) → Buf (Elt Ideal) ℓ) (c : Dev nD) :
    Pipeline.afterTail₀ cfgs (Gen.dats m) 0 (Gen.V0 m) [hostOps1] c main_v24
      = tailScalar (Gen.V m c main_v13) ((Gen.dats m 0 c).arrAt 2 cfg0.N) := by
  have e18 : Pipeline.withArrays (cfgs 0).spec c (Gen.V0 m c) (fun w => (Gen.dats m 0 c).arrAt w (cfgs 0).N)
      (Proc.devRef .tc main_v18) = (Gen.dats m 0 c).arrAt 2 cfg0.N :=
    Pipeline.withArrays_arr spec0 launch0.win.arr_inj c _ _ 2
  have e13 : Pipeline.withArrays (cfgs 0).spec c (Gen.V0 m c) (fun w => (Gen.dats m 0 c).arrAt w (cfgs 0).N)
      (Proc.devRef .tc main_v13) = Gen.V m c main_v13 :=
    Pipeline.withArrays_of_ne _ c (Gen.V0 m c) _ main_v13 (by exact (by decide : ∀ w, Pipeline.arrRef spec0 w ≠ main_v13))
  unfold Pipeline.afterTail₀
  show StableHlo.after hostOps1 _ (Proc.devRef .tc main_v24) = _
  after_results
  exact congrArg₂ tailScalar e13 e18

/-- The result of the whole program is the loss in the first program's form, once the blockwise stage's output array
    is known to be the column of row quantities over its two operands. -/
theorem tail_result (m : (ℓ : Loc nD τ sig) → Buf (Elt Ideal) ℓ) (c : Dev nD)
    (hfinal : (Gen.dats m 0 c).arrAt 2 cfg0.N = Cert.Contrast.lseColumn (Gen.V m c main_v16) (Gen.V m c main_v17)) :
    Pipeline.afterTail₀ cfgs (Gen.dats m) 0 (Gen.V0 m) [hostOps1] c main_v24
      = fun _ => Cert.Contrast.fixedShiftLoss (m ((c.tc : Thread nD τ).loc main_arg0)) (m ((c.tc : Thread nD τ).loc main_arg1)) := by
  rw [tail_eq]
  funext i
  refine tailScalar_apply _ _ _ _ (fun j => ?_) (fun r => ?_) i
  · rw [V_main_v13_eq]; exact pairScalar_apply _ _ j
  · rw [hfinal]; exact lseColumn_eq m c (ix2 r (0 : Fin 1))

/-- The first program's run: it terminates, its result is the loss in its own form, and the two tables are unchanged. -/
theorem run (m : (ℓ : Loc nD τ sig) → Buf (Elt Ideal) ℓ) (ρ : Dev nD → PrngReg)
    (hfinal : ∀ c : Dev nD, (Gen.dats m 0 c).arrAt 2 cfg0.N = Cert.Contrast.lseColumn (Gen.V m c main_v16) (Gen.V m c main_v17)) :
    θ_run (defs (F := Ideal)) (onTc (τ := τ) (main (F := Ideal))) ⟨m, fun _ => 0, ρ⟩ fun r => ∀ c : Dev nD,
      r.2.mem ((c.tc : Thread nD τ).loc main_v24) = (fun _ => Cert.Contrast.fixedShiftLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v24 (Pipeline.mem_restRefs_of main_v24 (by decide) (by decide))).trans (tail_result m c (hfinal c)),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c)⟩)
    (Gen.run_main m ρ)

end Cert.KernelIdeal.Val

end
-- ==== Proof.RefRunFold.lean ====
/-
  The reference program's run as one straight line of its 86 operations.

  The program's four calls (the row norm, the floor remainder with the select nested in it, the
  log-softmax, the gather along each row) execute the callee's operations on the call's own buffers, so
  the whole program is one list of operations: the callee's, over the call's buffer record, stand at the
  call. Every weakly fair execution then terminates with every buffer at the fold of the operations'
  results over the launch contents.
-/
import proofs.«159738_j86492051407169_2_alg».proof.ReferenceIdeal
import proofs.«159738_j86492051407169_2_alg».proof.Proof.Gen.ReferenceIdeal
import Idealize.ShloMosaic.Lib.StableHlo.Run

noncomputable section

namespace Cert.ReferenceIdeal.Hand.Run

open Cert.ReferenceIdeal Cert.ReferenceIdeal.Facts₀ Idealize.ShloMosaic Idealize.ShloMosaic.TcCoe Idealize.SL.Sem
  Idealize.ShloMosaic.StableHlo

variable {F : FTy → Type} [FloatOps F]

/-- The program's 86 operations, in order: the stacking; the norm function's five; the clamp, the division
    by the clamped norms, the transpose, the matrix product and the division by the temperature; the label
    chain's five; the remainder function's twenty-one (the select of its nested call among them); the
    log-softmax function's fifteen; the labels as a column; the gather function's twenty-two; the reshape,
    the sum, the negation and the division by the number of rows. -/
abbrev ops : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (.of main_v0 : TRef sig ⟨S8192x256, .f32⟩) (.of main_v0 : TRef sig ⟨S8192x256, .f32⟩) main_call0.v0 mulf,
    TRef.nullary main_call0.cst (constant S_ .f32 0x00000000#32),
    TRef.binary main_call0.v0 main_call0.cst main_call0.v1 (fun x v => Host.reduceAdd x v reducesTo_S8192x256_S8192_d1 h_S_),
    TRef.unary main_call0.v1 main_call0.v2 (broadcastInDim S8192x1 ![0] bcast_S8192_S8192x1_0),
    TRef.unary main_call0.v2 main_call0.v3 Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x256 ![0, 1] bcast_S8192x1_S8192x256_0_1 : (⟨S8192x1, .f32⟩ : BufTy).Contents (Elt F) → (⟨S8192x256, .f32⟩ : BufTy).Contents (Elt F)),
    binary main_v0 main_v4 main_v5 (Host.divf : (⟨S8192x256, .f32⟩ : BufTy).Contents (Elt F) → (⟨S8192x256, .f32⟩ : BufTy).Contents (Elt F) → (⟨S8192x256, .f32⟩ : BufTy).Contents (Elt F)),
    unary main_v5 main_v6 ((transpose S256x8192 [1, 0] · transposes_S8192x256_S256x8192_1_0) : (⟨S8192x256, .f32⟩ : BufTy).Contents (Elt F) → (⟨S256x8192, .f32⟩ : BufTy).Contents (Elt F)),
    binary main_v5 main_v6 main_v7 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x3F000000#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_v10 (iotaInDim S8192 32 0),
    nullary main_c (constantI S_ 32 4096#32),
    unary main_c main_v11 (broadcastInDim S8192 ![] bcast_S_S8192 : (⟨S_, .i32⟩ : BufTy).Contents (Elt F) → (⟨S8192, .i32⟩ : BufTy).Contents (Elt F)),
    binary main_v10 main_v11 main_v12 (addi : (⟨S8192, .i32⟩ : BufTy).Contents (Elt F) → (⟨S8192, .i32⟩ : BufTy).Contents (Elt F) → (⟨S8192, .i32⟩ : BufTy).Contents (Elt F)),
    nullary main_c_1 (constantI S_ 32 8192#32),
    TRef.unary (.of main_c_1 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S8192 ![] bcast_S_S8192),
    TRef.binary (.of main_v12 : TRef sig ⟨S8192, .i32⟩) main_call1.v3 main_call1.v4 Host.remsi,
    TRef.nullary main_call1.c_1 (constantI S_ 32 0#32),
    TRef.unary main_call1.c_1 main_call1.v5 (broadcastInDim S8192 ![] bcast_S_S8192),
    TRef.binary main_call1.v4 main_call1.v5 main_call1.v6 (cmpi .ne),
    TRef.nullary main_call1.c_2 (constantI S_ 32 0#32),
    TRef.unary main_call1.c_2 main_call1.v7 (broadcastInDim S8192 ![] bcast_S_S8192),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S8192 ![] bcast_S_S8192),
    TRef.binary main_call1.v8 main_call1.v10 main_call1.v11 (cmpi .ne),
    TRef.binary main_call1.v11 main_call1.v6 main_call1.v12 andi,
    TRef.unary main_call1.call0.v0 main_call1.v13 (broadcastInDim S8192 ![] bcast_S_S8192),
    TRef.binary main_call1.v4 main_call1.v13 main_call1.v14 addi,
    TRef.ternary main_call1.v12 main_call1.v14 main_call1.v4 main_call1.v15 select,
    TRef.nullary main_call2.cst (constant S_ .f32 0xFF800000#32),
    TRef.binary (.of main_v9 : TRef sig ⟨S8192x8192, .f32⟩) main_call2.cst main_call2.v0 (fun x v => Host.reduce FloatOps.maximumf x v reducesTo_S8192x8192_S8192_d1 h_S_),
    TRef.nullary main_call2.cst_0 (constant S_ .f32 0xFF800000#32),
    TRef.unary main_call2.cst_0 main_call2.v1 (broadcastInDim S8192 ![] bcast_S_S8192),
    TRef.binary main_call2.v1 main_call2.v0 main_call2.v2 maximumf,
    TRef.unary main_call2.v2 main_call2.v3 (broadcastInDim S8192x1 ![0] bcast_S8192_S8192x1_0),
    TRef.unary main_call2.v3 main_call2.v4 (broadcastInDim S8192x8192 ![0, 1] bcast_S8192x1_S8192x8192_0_1),
    TRef.binary (.of main_v9 : TRef sig ⟨S8192x8192, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S8192x8192_S8192_d1 h_S_),
    TRef.unary main_call2.v7 main_call2.v8 (broadcastInDim S8192x1 ![0] bcast_S8192_S8192x1_0),
    TRef.unary main_call2.v8 main_call2.v9 Host.log,
    TRef.unary main_call2.v9 main_call2.v10 (broadcastInDim S8192x8192 ![0, 1] bcast_S8192x1_S8192x8192_0_1),
    TRef.binary main_call2.v5 main_call2.v10 main_call2.v11 subf,
    unary main_v13 main_v15 (broadcastInDim S8192x1 ![0] bcast_S8192_S8192x1_0 : (⟨S8192, .i32⟩ : BufTy).Contents (Elt F) → (⟨S8192x1, .i32⟩ : BufTy).Contents (Elt F)),
    TRef.nullary main_call3.c (constantI S_ 32 0#32),
    TRef.unary main_call3.c main_call3.v0 (broadcastInDim S8192x1 ![] bcast_S_S8192x1),
    TRef.binary (.of main_v15 : TRef sig ⟨S8192x1, .i32⟩) main_call3.v0 main_call3.v1 (cmpi .slt),
    TRef.nullary main_call3.c_0 (constantI S_ 32 8192#32),
    TRef.unary main_call3.c_0 main_call3.v2 (broadcastInDim S8192x1 ![] bcast_S_S8192x1),
    TRef.binary (.of main_v15 : TRef sig ⟨S8192x1, .i32⟩) main_call3.v2 main_call3.v3 addi,
    TRef.ternary main_call3.v1 main_call3.v3 (.of main_v15 : TRef sig ⟨S8192x1, .i32⟩) main_call3.v4 select,
    TRef.reshape main_call3.v4 main_call3.v5 rfl shapeCasts_S8192x1_S8192x1x1,
    TRef.nullary main_call3.c_1 (constantI S1 32 8191#32),
    TRef.nullary main_call3.c_2 (constantI S_ 32 0#32),
    TRef.unary main_call3.c_2 main_call3.v6 (broadcastInDim S8192x1x1 ![] bcast_S_S8192x1x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S8192x1x1 ![0, 1, 2] bcast_S1x1x1_S8192x1x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1x1_S8192x1_d2 h_S_),
    TRef.binary (.of main_v14 : TRef sig ⟨S8192x8192, .f32⟩) main_call3.v5 main_call3.v13 (fun x i => Host.gather gather_S8192x8192_S8192x1x1_S8192x1_n_1_0_0_1_2_11 x i),
    TRef.nullary main_call3.cst (constant S_ .f32 0x7FC00000#32),
    TRef.unary main_call3.cst main_call3.v14 (broadcastInDim S8192x1 ![] bcast_S_S8192x1),
    TRef.ternary main_call3.v12 main_call3.v13 main_call3.v14 main_call3.v15 select,
    reshape main_v16 main_v17 rfl shapeCasts_S8192x1_S8192,
    nullary main_cst_2 (constant S_ .f32 0x00000000#32),
    binary main_v17 main_cst_2 main_v18 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v18 main_v19 (Host.negf : (⟨S_, .f32⟩ : BufTy).Contents (Elt F) → (⟨S_, .f32⟩ : BufTy).Contents (Elt F)),
    nullary main_cst_3 (constant S_ .f32 0x46000000#32),
    binary main_v19 main_cst_3 main_v20 (Host.divf : (⟨S_, .f32⟩ : BufTy).Contents (Elt F) → (⟨S_, .f32⟩ : BufTy).Contents (Elt F) → (⟨S_, .f32⟩ : BufTy).Contents (Elt F)) ]

/-- @main is that straight line: a call is the callee's body on the call's buffers, and sequencing computes, so
    both sides are the same chain of operation steps. -/
theorem main_eq (c : Dev nD) : main (F := F) c = seq ops := rfl

/-- No buffer of the program is scoped. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., unary_bufs_sub ..,
    binary_bufs_sub .., nullary_bufs_sub .., unary_bufs_sub .., binary_bufs_sub .., nullary_bufs_sub .., nullary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., reshape_bufs_sub .., nullary_bufs_sub .., binary_bufs_sub .., unary_bufs_sub ..,
    nullary_bufs_sub .., binary_bufs_sub ..⟩

/-- From any memory with zero counters every weakly fair execution of @main terminates, and every final
    state has each buffer at the fold of the operations' results over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand.Run

end
-- ==== Proof.RefStages.lean ====
/-
  The reference program's operations composed: one definition per result buffer, in program order.

  Each stage is the pure function of one operation of the program applied to the stages of its
  operands, at exact arithmetic on the extended reals; a called function's operations appear at the
  call, over the call's own buffers (`callK_…`). The last stage is the scalar the program returns.
  Stages `v0` … `v9` form the logits (stack the tables, divide each row by its clamped norm, all inner
  products, divided by the temperature); `v10` … `v13` form the integer labels (row r's label is
  (r + 4096) mod 8192, through the floor-remainder's sign correction); `call2_…`, `v14` the log-softmax
  along each row; `v15`, `call3_…`, `v16` pick each row's labelled entry (a gather, guarded by the index
  range test); `v17` … `v20` sum the picked entries, negate and divide by the number of rows.
-/
import proofs.«159738_j86492051407169_2_alg».proof.ReferenceIdeal
import proofs.«159738_j86492051407169_2_alg».proof.Proof.Gen.ReferenceIdeal
import proofs.«159738_j86492051407169_2_alg».proof.Proof.Spec

noncomputable section

namespace Cert.ReferenceIdeal.Stage

open Cert.ReferenceIdeal Cert.ReferenceIdeal.Facts₀ Idealize.ShloMosaic

/-! ### The stacked tables and the row norms (the call of the norm function) -/

/-- The two tables stacked along the rows. -/
def v0 (a b : Cert.Contrast.Table) : FVec Ideal S8192x256 .f32 :=
  concatenate S8192x256 0 [⟨S4096x256, a⟩, ⟨S4096x256, b⟩] concatenates_S4096x256_S4096x256_S8192x256_d0
/-- The squares of the stacked entries. -/
def call0_v0 (a b : Cert.Contrast.Table) : FVec Ideal S8192x256 .f32 := mulf (v0 a b) (v0 a b)
/-- Each row's sum of squares. -/
def call0_v1 (a b : Cert.Contrast.Table) : FVec Ideal S8192 .f32 :=
  Host.reduceAdd (F := Ideal) (call0_v0 a b) (constant (F := Ideal) S_ .f32 0x00000000#32) reducesTo_S8192x256_S8192_d1 h_S_
/-- The same as a column. -/
def call0_v2 (a b : Cert.Contrast.Table) : FVec Ideal S8192x1 .f32 :=
  broadcastInDim S8192x1 ![0] bcast_S8192_S8192x1_0 (call0_v1 a b)
/-- Each row's Euclidean norm. -/
def v1 (a b : Cert.Contrast.Table) : FVec Ideal S8192x1 .f32 := Host.sqrt (F := Ideal) (call0_v2 a b)

/-! ### The unit rows and the logits -/

/-- The norm clamp. -/
def cst : FVec Ideal S_ .f32 := constant (F := Ideal) S_ .f32 0x322BCC77#32
/-- The clamp as a column. -/
def v2 : FVec Ideal S8192x1 .f32 := broadcastInDim S8192x1 ![] bcast_S_S8192x1 cst
/-- Each row's norm clamped below. -/
def v3 (a b : Cert.Contrast.Table) : FVec Ideal S8192x1 .f32 := maximumf (v1 a b) v2
/-- The clamped norms along each row. -/
def v4 (a b : Cert.Contrast.Table) : FVec Ideal S8192x256 .f32 :=
  broadcastInDim S8192x256 ![0, 1] bcast_S8192x1_S8192x256_0_1 (v3 a b)
/-- The unit rows. -/
def v5 (a b : Cert.Contrast.Table) : FVec Ideal S8192x256 .f32 := Host.divf (F := Ideal) (v0 a b) (v4 a b)
/-- The unit rows transposed. -/
def v6 (a b : Cert.Contrast.Table) : FVec Ideal S256x8192 .f32 :=
  transpose S256x8192 [1, 0] (v5 a b) transposes_S8192x256_S256x8192_1_0
/-- All inner products of unit rows. -/
def v7 (a b : Cert.Contrast.Table) : FVec Ideal S8192x8192 .f32 :=
  Host.dotGeneral (F := Ideal) dot_S8192x256_S256x8192_S8192x8192_1_0_0_1_n_n none (v5 a b) (v6 a b)
/-- The temperature. -/
def cst_0 : FVec Ideal S_ .f32 := constant (F := Ideal) S_ .f32 0x3F000000#32
/-- The temperature at every entry. -/
def v8 : FVec Ideal S8192x8192 .f32 := broadcastInDim S8192x8192 ![] bcast_S_S8192x8192 cst_0
/-- The logits. -/
def v9 (a b : Cert.Contrast.Table) : FVec Ideal S8192x8192 .f32 := Host.divf (F := Ideal) (v7 a b) v8

/-! ### The labels: (r + 4096) mod 8192 -/

/-- The row numbers. -/
def v10 : IVec S8192 32 := iotaInDim S8192 32 0
/-- 4096. -/
def c : IVec S_ 32 := constantI S_ 32 4096#32
/-- 4096 at every row. -/
def v11 : IVec S8192 32 := broadcastInDim S8192 ![] bcast_S_S8192 c
/-- r + 4096. -/
def v12 : IVec S8192 32 := addi v10 v11
/-- The modulus 8192. -/
def c_1 : IVec S_ 32 := constantI S_ 32 8192#32
/-- The modulus, converted to its own type. -/
def call1_v0 : IVec S_ 32 := id c_1
/-- 0. -/
def call1_c : IVec S_ 32 := constantI S_ 32 0#32
/-- Whether the modulus is 0. -/
def call1_v1 : IVec S_ 1 := cmpi .eq call1_v0 call1_c
/-- 1. -/
def call1_c_0 : IVec S_ 32 := constantI S_ 32 1#32
/-- The divisor: 1 where the modulus is 0, else the modulus. -/
def call1_v2 : IVec S_ 32 := select call1_v1 call1_c_0 call1_v0
/-- The divisor at every row. -/
def call1_v3 : IVec S8192 32 := broadcastInDim S8192 ![] bcast_S_S8192 call1_v2
/-- The truncated remainder of r + 4096. -/
def call1_v4 : IVec S8192 32 := Host.remsi v12 call1_v3
/-- 0. -/
def call1_c_1 : IVec S_ 32 := constantI S_ 32 0#32
/-- 0 at every row. -/
def call1_v5 : IVec S8192 32 := broadcastInDim S8192 ![] bcast_S_S8192 call1_c_1
/-- Whether the remainder is not 0. -/
def call1_v6 : IVec S8192 1 := cmpi .ne call1_v4 call1_v5
/-- 0. -/
def call1_c_2 : IVec S_ 32 := constantI S_ 32 0#32
/-- 0 at every row. -/
def call1_v7 : IVec S8192 32 := broadcastInDim S8192 ![] bcast_S_S8192 call1_c_2
/-- Whether the remainder is negative. -/
def call1_v8 : IVec S8192 1 := cmpi .slt call1_v4 call1_v7
/-- 0. -/
def call1_c_3 : IVec S_ 32 := constantI S_ 32 0#32
/-- Whether the divisor is negative. -/
def call1_v9 : IVec S_ 1 := cmpi .slt call1_v2 call1_c_3
/-- The same at every row. -/
def call1_v10 : IVec S8192 1 := broadcastInDim S8192 ![] bcast_S_S8192 call1_v9
/-- Whether the remainder's sign differs from the divisor's. -/
def call1_v11 : IVec S8192 1 := cmpi .ne call1_v8 call1_v10
/-- Whether the remainder must be corrected. -/
def call1_v12 : IVec S8192 1 := andi call1_v11 call1_v6
/-- The divisor at every row. -/
def call1_v13 : IVec S8192 32 := broadcastInDim S8192 ![] bcast_S_S8192 call1_v2
/-- The remainder plus the divisor. -/
def call1_v14 : IVec S8192 32 := addi call1_v4 call1_v13
/-- The labels: the floor remainder of r + 4096 by 8192. -/
def v13 : IVec S8192 32 := select call1_v12 call1_v14 call1_v4

/-! ### The log-softmax of the logits along each row -/

/-- Minus infinity. -/
def call2_cst : FVec Ideal S_ .f32 := constant (F := Ideal) S_ .f32 0xFF800000#32
/-- Each row's largest logit. -/
def call2_v0 (a b : Cert.Contrast.Table) : FVec Ideal S8192 .f32 :=
  Host.reduce (FloatOps.maximumf (F := Ideal)) (v9 a b) call2_cst reducesTo_S8192x8192_S8192_d1 h_S_
/-- Minus infinity. -/
def call2_cst_0 : FVec Ideal S_ .f32 := constant (F := Ideal) S_ .f32 0xFF800000#32
/-- Minus infinity at every row. -/
def call2_v1 : FVec Ideal S8192 .f32 := broadcastInDim S8192 ![] bcast_S_S8192 call2_cst_0
/-- The row maxima joined with minus infinity. -/
def call2_v2 (a b : Cert.Contrast.Table) : FVec Ideal S8192 .f32 := maximumf call2_v1 (call2_v0 a b)
/-- The same as a column. -/
def call2_v3 (a b : Cert.Contrast.Table) : FVec Ideal S8192x1 .f32 :=
  broadcastInDim S8192x1 ![0] bcast_S8192_S8192x1_0 (call2_v2 a b)
/-- The row maxima along each row. -/
def call2_v4 (a b : Cert.Contrast.Table) : FVec Ideal S8192x8192 .f32 :=
  broadcastInDim S8192x8192 ![0, 1] bcast_S8192x1_S8192x8192_0_1 (call2_v3 a b)
/-- The logits minus their row maximum. -/
def call2_v5 (a b : Cert.Contrast.Table) : FVec Ideal S8192x8192 .f32 := subf (v9 a b) (call2_v4 a b)
/-- Their exponentials. -/
def call2_v6 (a b : Cert.Contrast.Table) : FVec Ideal S8192x8192 .f32 := Host.exp (F := Ideal) (call2_v5 a b)
/-- 0. -/
def call2_cst_1 : FVec Ideal S_ .f32 := constant (F := Ideal) S_ .f32 0x00000000#32
/-- Each row's sum of exponentials. -/
def call2_v7 (a b : Cert.Contrast.Table) : FVec Ideal S8192 .f32 :=
  Host.reduceAdd (F := Ideal) (call2_v6 a b) call2_cst_1 reducesTo_S8192x8192_S8192_d1 h_S_
/-- The same as a column. -/
def call2_v8 (a b : Cert.Contrast.Table) : FVec Ideal S8192x1 .f32 :=
  broadcastInDim S8192x1 ![0] bcast_S8192_S8192x1_0 (call2_v7 a b)
/-- Its logarithm. -/
def call2_v9 (a b : Cert.Contrast.Table) : FVec Ideal S8192x1 .f32 := Host.log (F := Ideal) (call2_v8 a b)
/-- The logarithms along each row. -/
def call2_v10 (a b : Cert.Contrast.Table) : FVec Ideal S8192x8192 .f32 :=
  broadcastInDim S8192x8192 ![0, 1] bcast_S8192x1_S8192x8192_0_1 (call2_v9 a b)
/-- The log-softmax. -/
def v14 (a b : Cert.Contrast.Table) : FVec Ideal S8192x8192 .f32 := subf (call2_v5 a b) (call2_v10 a b)

/-! ### Each row's labelled entry -/

/-- The labels as a column. -/
def v15 : IVec S8192x1 32 := broadcastInDim S8192x1 ![0] bcast_S8192_S8192x1_0 v13
/-- 0. -/
def call3_c : IVec S_ 32 := constantI S_ 32 0#32
/-- 0 at every row. -/
def call3_v0 : IVec S8192x1 32 := broadcastInDim S8192x1 ![] bcast_S_S8192x1 call3_c
/-- Whether the label is negative. -/
def call3_v1 : IVec S8192x1 1 := cmpi .slt v15 call3_v0
/-- 8192. -/
def call3_c_0 : IVec S_ 32 := constantI S_ 32 8192#32
/-- 8192 at every row. -/
def call3_v2 : IVec S8192x1 32 := broadcastInDim S8192x1 ![] bcast_S_S8192x1 call3_c_0
/-- The label plus 8192. -/
def call3_v3 : IVec S8192x1 32 := addi v15 call3_v2
/-- The label, a negative one counted from the end. -/
def call3_v4 : IVec S8192x1 32 := select call3_v1 call3_v3 v15
/-- The same with a unit index-vector axis. -/
def call3_v5 : IVec S8192x1x1 32 := shapeCast S8192x1x1 call3_v4 shapeCasts_S8192x1_S8192x1x1
/-- The largest admissible column, 8191. -/
def call3_c_1 : IVec S1 32 := constantI S1 32 8191#32
/-- 0. -/
def call3_c_2 : IVec S_ 32 := constantI S_ 32 0#32
/-- 0 at every index. -/
def call3_v6 : IVec S8192x1x1 32 := broadcastInDim S8192x1x1 ![] bcast_S_S8192x1x1 call3_c_2
/-- Whether the index is at least 0. -/
def call3_v7 : IVec S8192x1x1 1 := cmpi .sge call3_v5 call3_v6
/-- 8191 with unit axes. -/
def call3_v8 : IVec S1x1x1 32 := broadcastInDim S1x1x1 ![2] bcast_S1_S1x1x1_2 call3_c_1
/-- 8191 at every index. -/
def call3_v9 : IVec S8192x1x1 32 := broadcastInDim S8192x1x1 ![0, 1, 2] bcast_S1x1x1_S8192x1x1_0_1_2 call3_v8
/-- Whether the index is at most 8191. -/
def call3_v10 : IVec S8192x1x1 1 := cmpi .sle call3_v5 call3_v9
/-- Whether the index is in range. -/
def call3_v11 : IVec S8192x1x1 1 := andi call3_v7 call3_v10
/-- True. -/
def call3_c_3 : IVec S_ 1 := constantI S_ 1 1#1
/-- Whether every component of the row's index is in range. -/
def call3_v12 : IVec S8192x1 1 :=
  Host.reduce IntOp.andi call3_v11 call3_c_3 reducesTo_S8192x1x1_S8192x1_d2 h_S_
/-- Each row's entry of the log-softmax at its index. -/
def call3_v13 (a b : Cert.Contrast.Table) : FVec Ideal S8192x1 .f32 :=
  Host.gather gather_S8192x8192_S8192x1x1_S8192x1_n_1_0_0_1_2_11 (v14 a b) call3_v5
/-- The fill value for an index out of range. -/
def call3_cst : FVec Ideal S_ .f32 := constant (F := Ideal) S_ .f32 0x7FC00000#32
/-- The fill value at every row. -/
def call3_v14 : FVec Ideal S8192x1 .f32 := broadcastInDim S8192x1 ![] bcast_S_S8192x1 call3_cst
/-- Each row's labelled log-probability (the fill value where the index is out of range). -/
def v16 (a b : Cert.Contrast.Table) : FVec Ideal S8192x1 .f32 := select call3_v12 (call3_v13 a b) call3_v14

/-! ### The mean of the negated picked entries -/

/-- The picked entries as a vector. -/
def v17 (a b : Cert.Contrast.Table) : FVec Ideal S8192 .f32 := shapeCast S8192 (v16 a b) shapeCasts_S8192x1_S8192
/-- 0. -/
def cst_2 : FVec Ideal S_ .f32 := constant (F := Ideal) S_ .f32 0x00000000#32
/-- Their sum. -/
def v18 (a b : Cert.Contrast.Table) : FVec Ideal S_ .f32 :=
  Host.reduceAdd (F := Ideal) (v17 a b) cst_2 reducesTo_S8192_S_d0 h_S_
/-- Negated. -/
def v19 (a b : Cert.Contrast.Table) : FVec Ideal S_ .f32 := Host.negf (F := Ideal) (v18 a b)
/-- The number of rows. -/
def cst_3 : FVec Ideal S_ .f32 := constant (F := Ideal) S_ .f32 0x46000000#32
/-- The loss. -/
def v20 (a b : Cert.Contrast.Table) : FVec Ideal S_ .f32 := Host.divf (F := Ideal) (v19 a b) cst_3

/-- The scalar the program returns. -/
def result (a b : Cert.Contrast.Table) : FVec Ideal S_ .f32 := v20 a b

end Cert.ReferenceIdeal.Stage

end
-- ==== Proof.RefRun.lean ====
/-
  The reference program's run read back: the scalar it returns is the last of the composed stages.

  After the 86 operations the result buffer holds the fold of their results over the launch contents. Unrolling
  the fold, each operation's result at its own buffer is its function of its operands' contents and at any other
  buffer what was there; a called function's operation moves contents between a value's type and its buffer's
  type and back, which changes nothing. What is left is the operations' functions composed over the two
  argument tables, which is the last stage by definition. The arguments' buffers are written by no operation.
-/
import proofs.«159738_j86492051407169_2_alg».proof.Proof.RefRunFold
import proofs.«159738_j86492051407169_2_alg».proof.Proof.RefStages

noncomputable section

namespace Cert.ReferenceIdeal.Hand.Run

open Cert.ReferenceIdeal Cert.ReferenceIdeal.Facts₀ Idealize.ShloMosaic Idealize.ShloMosaic.TcCoe Idealize.SL.Sem
  Idealize.ShloMosaic.StableHlo

set_option maxRecDepth 8192 in
set_option maxHeartbeats 1000000 in
/-- From any contents, the result buffer after the operations holds the last stage of the two argument tables:
    the fold unrolled, every operation's result read at its own buffer and skipped at the others, the moves
    between a value's type and its buffer's type cancelled; the composed term is the stages' by definition. -/
theorem result_eq (V : Valuation τ sig (Elt Ideal)) :
    after (ops (F := Ideal)) V (main_v20 : DevRef τ sig)
      = Stage.result (V (main_arg0 : DevRef τ sig)) (V (main_arg1 : DevRef τ sig)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_cast, cast_eq]
  rfl

set_option maxRecDepth 8192 in
set_option maxHeartbeats 1000000 in
/-- No operation writes the first argument's buffer. -/
theorem arg0_eq (V : Valuation τ sig (Elt Ideal)) :
    after (ops (F := Ideal)) V (main_arg0 : DevRef τ sig) = V (main_arg0 : DevRef τ sig) := by
  after_results_simp

set_option maxRecDepth 8192 in
set_option maxHeartbeats 1000000 in
/-- No operation writes the second argument's buffer. -/
theorem arg1_eq (V : Valuation τ sig (Elt Ideal)) :
    after (ops (F := Ideal)) V (main_arg1 : DevRef τ sig) = V (main_arg1 : DevRef τ sig) := by
  after_results_simp

end Cert.ReferenceIdeal.Hand.Run

namespace Cert.ReferenceIdeal.Hand

open Cert.ReferenceIdeal Idealize.ShloMosaic Idealize.ShloMosaic.TcCoe Idealize.SL.Sem Idealize.ShloMosaic.StableHlo

/-- On every device, from any memory with zero counters: every weakly fair execution of @main terminates with
    the result buffer at the last stage of the two argument tables, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = Cert.ReferenceIdeal.Stage.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (Run.result_eq _),
      (h c main_arg0).trans (Run.arg0_eq _),
      (h c main_arg1).trans (Run.arg1_eq _)⟩)
    (Run.run_fold m ρ)

end Cert.ReferenceIdeal.Hand

end
-- ==== Proof.RefReadLayout.lean ====
/-
  The reference's layout operations and reductions read at an index.

  A scalar broadcast to a shape reads the scalar everywhere; a vector written as a column, and a column spread along the
  rows of a matrix, read the entry of their row; a column recast with a further unit axis, or back to a vector, reads the
  entry of its row. A sum along the rows of a matrix is the start value plus the sum over the columns; the sum of a vector
  into a scalar is the start value plus the sum over its entries; a maximum along the rows of a matrix is the fold of `max`
  from the start value over the columns; an `and` over a unit axis is the `and` of the one entry with the start value.
  Each is the general index lemma of its operation with the source index written out by coordinates.
-/
import Idealize.ShloMosaic.Lib.ValueIdx
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx

variable {α : Type}

/-! ### Broadcasts -/

/-- A scalar broadcast to any shape reads the scalar's one entry everywhere. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector written as a column reads, at (r, u), the vector's entry r. -/
theorem bcast_vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ ![0] h x (ix2 r u) = x (ix1 r) :=
  broadcastInDim_apply _ h x _ _ (fun c => match c with
    | ⟨0, _⟩ => by
      show r.val = if a = 1 then 0 else r.val
      split
      · have := r.isLt; omega
      · rfl)

/-- A column spread along the rows of a matrix reads, at (r, c), the column's entry of row r. -/
theorem bcast_col_mat_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (c : Fin b) :
    broadcastInDim ⟨2, ![a, b]⟩ ![0, 1] h x (ix2 r c) = x (ix2 r (0 : Fin 1)) :=
  broadcastInDim_apply _ h x _ _ (fun ax => match ax with
    | ⟨0, _⟩ => by
      show r.val = if a = 1 then 0 else r.val
      split
      · have := r.isLt; omega
      · rfl
    | ⟨1, _⟩ => rfl)

/-- A one-entry vector given two leading unit axes reads that entry. -/
theorem bcast_one_unit3_apply (h : (⟨1, ![1]⟩ : Shape).BroadcastsInDim ⟨3, ![1, 1, 1]⟩ (![2] : Fin 1 → Fin 3))
    (x : (⟨1, ![1]⟩ : Shape).Idx → α) (j : (⟨3, ![1, 1, 1]⟩ : Shape).Idx) :
    broadcastInDim ⟨3, ![1, 1, 1]⟩ ![2] h x j = x (ix1 (0 : Fin 1)) :=
  broadcastInDim_apply _ h x _ _ (fun c => match c with | ⟨0, _⟩ => rfl)

/-- A one-entry rank-3 array repeated along the first axis reads that entry at every row. -/
theorem bcast_unit3_rows_apply {a : ℕ}
    (h : (⟨3, ![1, 1, 1]⟩ : Shape).BroadcastsInDim ⟨3, ![a, 1, 1]⟩ (![0, 1, 2] : Fin 3 → Fin 3))
    (x : (⟨3, ![1, 1, 1]⟩ : Shape).Idx → α) (j : (⟨3, ![a, 1, 1]⟩ : Shape).Idx) :
    broadcastInDim ⟨3, ![a, 1, 1]⟩ ![0, 1, 2] h x j = x (ix3 (0 : Fin 1) (0 : Fin 1) (0 : Fin 1)) :=
  broadcastInDim_apply _ h x _ _ (fun c => match c with | ⟨0, _⟩ => rfl | ⟨1, _⟩ => rfl | ⟨2, _⟩ => rfl)

/-! ### Shape casts of a column -/

/-- A column given a further unit axis reads, at (r, u, v), the column's entry of row r. -/
theorem shapeCast_a1_a11_apply {a : ℕ} (x : (⟨2, ![a, 1]⟩ : Shape).Idx → α)
    (h : (⟨2, ![a, 1]⟩ : Shape).ShapeCasts ⟨3, ![a, 1, 1]⟩) (r : Fin a) (u v : Fin 1) :
    shapeCast ⟨3, ![a, 1, 1]⟩ x h (ix3 r u v) = x (ix2 r (0 : Fin 1)) :=
  shapeCast_apply x h _ _ (by
    have hu : u.val = 0 := by omega
    have hv : v.val = 0 := by omega
    rw [Shape.rowMajor_val_two, Shape.rowMajor_val_three]
    show r.val * 1 + 0 = (r.val * 1 + u.val) * 1 + v.val
    omega)

/-- A column recast as a vector reads, at r, the column's entry of row r. -/
theorem shapeCast_a1_a_apply {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-! ### Reductions -/

/-- The sum along each row of a matrix: the start value plus the sum over the columns. -/
theorem reduceAdd_rows_apply {n m : ℕ} (x : FVec Ideal ⟨2, ![n, m]⟩ .f32) (init : FVec Ideal ⟨0, ![]⟩ .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (r : Fin n) :
    Host.reduceAdd (F := Ideal) x init h' hu (ix1 r) = init ix0 + ∑ d : Fin m, x (ix2 r d) := by
  refine (Ideal.hostReduceAdd_single h' h x (init (Shape.Idx.first hu)) (ix1 r)).trans ?_
  rw [eq_ix0 (Shape.Idx.first hu)]
  refine congrArg (init ix0 + ·) (Finset.sum_congr rfl fun d _ => congrArg x ?_)
  funext c
  match c with
  | ⟨0, _⟩ => exact Fin.ext rfl
  | ⟨1, _⟩ => exact Fin.ext rfl

/-- The sum of a vector into a scalar: the start value plus the sum over the entries. -/
theorem reduceAdd_vec_apply {n : ℕ} (x : FVec Ideal ⟨1, ![n]⟩ .f32) (init : FVec Ideal ⟨0, ![]⟩ .f32)
    (h' : (⟨1, ![n]⟩ : Shape).ReducesTo [0] ⟨0, ![]⟩)
    (hu : 0 < (⟨0, ![]⟩ : Shape).numel) (j : (⟨0, ![]⟩ : Shape).Idx) :
    Host.reduceAdd (F := Ideal) x init h' hu j = init ix0 + ∑ r : Fin n, x (ix1 r) := by
  refine (Ideal.hostReduceAdd_total h' (fun b => b.elim0) x (init (Shape.Idx.first hu)) j).trans ?_
  rw [eq_ix0 (Shape.Idx.first hu)]
  refine congrArg (init ix0 + ·) ?_
  exact Fintype.sum_equiv ⟨fun i => i 0, fun r => ix1 r, fun i => (eq_ix1 i).symm, fun _ => rfl⟩ x
    (fun r => x (ix1 r)) (fun i => congrArg x (eq_ix1 i))

/-- The maximum along each row of a matrix: the fold of `max` from the start value over the columns. -/
theorem reduceMax_rows_apply {n m : ℕ} (x : FVec Ideal ⟨2, ![n, m]⟩ .f32) (init : FVec Ideal ⟨0, ![]⟩ .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (r : Fin n) :
    Host.reduce (FloatOps.maximumf (F := Ideal) (φ := .f32)) x init h' hu (ix1 r)
      = (Finset.univ : Finset (Fin m)).fold max (init ix0) (fun c => x (ix2 r c)) := by
  refine (Host.reduce_eq_fold_single (FloatOps.maximumf (F := Ideal) (φ := .f32)) x init h' h hu (ix1 r)).trans ?_
  rw [eq_ix0 (Shape.Idx.first hu)]
  have e : (x ∘ h.lift (ix1 r)) = fun c : Fin m => x (ix2 r c) := funext fun c => congrArg x (by
    funext ax
    match ax with
    | ⟨0, _⟩ => exact Fin.ext rfl
    | ⟨1, _⟩ => exact Fin.ext rfl)
  rw [e]
  rfl

/-- An `and` over a trailing unit axis: the one entry joined with the start value. -/
theorem reduceAnd_unit_apply {n : ℕ} (x : IVec ⟨3, ![n, 1, 1]⟩ 1) (init : IVec ⟨0, ![]⟩ 1)
    (h' : (⟨3, ![n, 1, 1]⟩ : Shape).ReducesTo [2] ⟨2, ![n, 1]⟩) (h : (⟨3, ![n, 1, 1]⟩ : Shape).Reduces [2] ⟨2, ![n, 1]⟩)
    (hu : 0 < (⟨0, ![]⟩ : Shape).numel) (r : Fin n) (u : Fin 1) :
    Host.reduce IntOp.andi x init h' hu (ix2 r u) = IntOp.andi (x (ix3 r u (0 : Fin 1))) (init ix0) := by
  refine (Host.reduce_eq_fold_single IntOp.andi x init h' h hu (ix2 r u)).trans ?_
  rw [eq_ix0 (Shape.Idx.first hu)]
  have e : ∀ g : Fin 1 → BitVec 1,
      (Finset.univ : Finset (Fin 1)).fold IntOp.andi (init ix0) g = IntOp.andi (g 0) (init ix0) := by
    intro g
    rw [Finset.univ_unique, Finset.fold_singleton]
    rfl
  refine (e (x ∘ h.lift (ix2 r u))).trans ?_
  show IntOp.andi (x (h.lift (ix2 r u) (0 : Fin 1))) (init ix0) = _
  refine congrArg (fun z => IntOp.andi (x z) (init ix0)) ?_
  funext ax
  match ax with
  | ⟨0, _⟩ => exact Fin.ext rfl
  | ⟨1, _⟩ => exact Fin.ext rfl
  | ⟨2, _⟩ => exact Fin.ext rfl

/-! ### The host's pointwise float operations, at the exact values -/

section Pointwise
variable {s : Shape} {φ : FTy}

theorem hostDivf_apply (x y : FVec Ideal s φ) (i : s.Idx) : Host.divf (F := Ideal) x y i = Ideal.div (x i) (y i) := rfl
theorem hostSqrt_apply (x : FVec Ideal s φ) (i : s.Idx) : Host.sqrt (F := Ideal) x i = Ideal.sqrt (x i) := rfl
theorem hostExp_apply (x : FVec Ideal s φ) (i : s.Idx) : Host.exp (F := Ideal) x i = Ideal.exp (x i) := rfl
theorem hostLog_apply (x : FVec Ideal s φ) (i : s.Idx) : Host.log (F := Ideal) x i = Ideal.log (x i) := rfl
theorem hostNegf_apply (x : FVec Ideal s φ) (i : s.Idx) : Host.negf (F := Ideal) x i = -(x i) := rfl

end Pointwise

end Cert.ReferenceIdeal.Hand

end
-- ==== Proof.RefReadUnit.lean ====
/-
  The reference's unit rows, read entry by entry.

  The two tables stacked along the rows hold, at row r, table `a`'s row r for r < 4096 and table `b`'s row r - 4096 from
  there on. The norm function squares every entry, sums each row from 0, writes the sums as a column and takes the square
  root; the result is joined by `max` with the clamp constant at every row, spread along the rows, and divides the stacked
  entries. So entry (r, d) of the quotient is the stacked entry over the clamped Euclidean norm of its row.
-/
import proofs.«159738_j86492051407169_2_alg».proof.Proof.RefStages
import proofs.«159738_j86492051407169_2_alg».proof.Proof.RefReadLayout
import proofs.«159738_j86492051407169_2_alg».proof.Proof.LibConcatRows

noncomputable section

open scoped BigOperators

namespace Cert.ReferenceIdeal.Hand

open Idealize.ShloMosaic Idealize.ShloMosaic.ValueIdx Cert.ReferenceIdeal Cert.Contrast

/-- The stacked tables at (r, d). -/
theorem v0_apply (a b : Contrast.Table) (r : Fin 8192) (d : Fin 256) : Stage.v0 a b (ix2 r d) = stacked a b r d := by
  unfold Stage.v0 stacked
  by_cases h : r.val < 4096
  · rw [dif_pos h]
    exact Cert.LibConcatRows.concat_rows_apply_top (a := 4096) (b := 4096) (c := 8192) (C := 256) a b _ r d h
  · rw [dif_neg h]
    exact Cert.LibConcatRows.concat_rows_apply_bottom (a := 4096) (b := 4096) (c := 8192) (C := 256) a b _ r d
      (by omega) (by have := r.isLt; omega)

/-- Row r's sum of squares (the sum starts from the zero word, which is 0). -/
theorem call0_v1_apply (a b : Contrast.Table) (r : Fin 8192) :
    Stage.call0_v1 a b (ix1 r) = ∑ d : Fin 256, stacked a b r d * stacked a b r d := by
  unfold Stage.call0_v1
  refine (reduceAdd_rows_apply _ _ _ (by decide) _ r).trans ?_
  have h0 : constant (F := Ideal) S_ .f32 0x00000000#32 ix0 = 0 := Ideal.ofBits_zero_f32
  rw [h0, zero_add]
  refine Finset.sum_congr rfl fun d _ => ?_
  show Stage.v0 a b (ix2 r d) * Stage.v0 a b (ix2 r d) = _
  rw [v0_apply]

/-- Row r's Euclidean norm, in the column. -/
theorem v1_apply (a b : Contrast.Table) (r : Fin 8192) (u : Fin 1) :
    Stage.v1 a b (ix2 r u) = Ideal.sqrt (∑ d : Fin 256, stacked a b r d * stacked a b r d) := by
  unfold Stage.v1 Stage.call0_v2
  exact congrArg Ideal.sqrt ((bcast_vec_col_apply _ _ r u).trans (call0_v1_apply a b r))

/-- The clamp constant at every row. -/
theorem v2_apply (j : S8192x1.Idx) : Stage.v2 j = eps := by
  unfold Stage.v2
  exact (splat_apply _ _ j).trans rfl

/-- Row r's clamped norm, in the column. -/
theorem v3_apply (a b : Contrast.Table) (r : Fin 8192) (u : Fin 1) : Stage.v3 a b (ix2 r u) = rowNorm a b r := by
  unfold Stage.v3 rowNorm
  show max (Stage.v1 a b (ix2 r u)) (Stage.v2 (ix2 r u)) = _
  rw [v1_apply, v2_apply]

/-- Row r's clamped norm, along the row. -/
theorem v4_apply (a b : Contrast.Table) (r : Fin 8192) (d : Fin 256) : Stage.v4 a b (ix2 r d) = rowNorm a b r := by
  unfold Stage.v4
  exact (bcast_col_mat_apply _ _ r d).trans (v3_apply a b r 0)

/-- Entry (r, d) of the unit rows. -/
theorem v5_apply (a b : Contrast.Table) (r : Fin 8192) (d : Fin 256) : Stage.v5 a b (ix2 r d) = unit a b r d := by
  unfold Stage.v5 unit
  show Ideal.div (Stage.v0 a b (ix2 r d)) (Stage.v4 a b (ix2 r d)) = _
  rw [v0_apply, v4_apply]

end Cert.ReferenceIdeal.Hand

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.RefReadLogit.lean ====
/-
  The reference's logits, read entry by entry.

  The unit rows are transposed and multiplied: entry (r, c) of the product is the sum over the 256 coordinates of unit
  row r times unit row c, the cosine of the two rows. Dividing by the temperature, the same constant at every entry,
  gives the logit.
-/
import proofs.«159738_j86492051407169_2_alg».proof.Proof.RefReadUnit
import proofs.«159738_j86492051407169_2_alg».proof.Proof.LibHostDot
import Idealize.ShloMosaic.Lib.ValueLayout

noncomputable section

open scoped BigOperators

namespace Cert.ReferenceIdeal.Hand

open Idealize.ShloMosaic Idealize.ShloMosaic.ValueIdx Cert.ReferenceIdeal Cert.Contrast

/-- The transposed unit rows at (d, c). -/
theorem v6_apply (a b : Contrast.Table) (d : Fin 256) (c : Fin 8192) : Stage.v6 a b (ix2 d c) = unit a b c d := by
  unfold Stage.v6
  exact (transpose_ix2_apply _ _ d c).trans (v5_apply a b c d)

/-- The product of the unit rows with their transpose at (r, c): the cosine of rows r and c. -/
theorem v7_apply (a b : Contrast.Table) (r c : Fin 8192) : Stage.v7 a b (ix2 r c) = cosine a b r c := by
  unfold Stage.v7 cosine
  refine (Cert.LibHostDot.dotGeneral_plain_apply (M := 8192) (K := 256) (P := 8192)
    dot_S8192x256_S256x8192_S8192x8192_1_0_0_1_n_n rfl rfl (fun _ _ => rfl) (fun _ _ => rfl) rfl rfl none
    (Stage.v5 a b) (Stage.v6 a b) r c).trans ?_
  refine Finset.sum_congr rfl fun k _ => ?_
  rw [v5_apply, v6_apply]

/-- The temperature at every entry. -/
theorem v8_apply (j : S8192x8192.Idx) : Stage.v8 j = half := by
  unfold Stage.v8
  exact (splat_apply _ _ j).trans rfl

/-- The logit of rows r and c. -/
theorem v9_apply (a b : Contrast.Table) (r c : Fin 8192) : Stage.v9 a b (ix2 r c) = logit a b r c := by
  unfold Stage.v9 logit
  show Ideal.div (Stage.v7 a b (ix2 r c)) (Stage.v8 (ix2 r c)) = _
  rw [v7_apply, v8_apply]

end Cert.ReferenceIdeal.Hand

end
-- ==== Proof.RefReadLogProb.lean ====
/-
  The reference's log-softmax of the logits, read entry by entry.

  The softmax function takes each row's maximum as a fold of `max` over the row from minus infinity, joins it once more
  with minus infinity, writes it as a column and spreads it along the rows, subtracts it from the logits, exponentiates,
  sums each row from 0, writes the sums as a column, takes the logarithm, spreads it along the rows and subtracts it
  from the shifted logits.
-/
import proofs.«159738_j86492051407169_2_alg».proof.Proof.RefReadLogit

noncomputable section

open scoped BigOperators

namespace Cert.ReferenceIdeal.Hand

open Idealize.ShloMosaic Idealize.ShloMosaic.ValueIdx Cert.ReferenceIdeal Cert.Contrast

/-- Row r's maximum: the fold of `max` over the row's logits from minus infinity. -/
theorem call2_v0_apply (a b : Contrast.Table) (r : Fin 8192) :
    Stage.call2_v0 a b (ix1 r) = (Finset.univ : Finset (Fin 8192)).fold max ninf (fun c => logit a b r c) := by
  unfold Stage.call2_v0
  refine (reduceMax_rows_apply _ _ _ (by decide) _ r).trans ?_
  have hc : Stage.call2_cst ix0 = ninf := rfl
  have e : (fun c : Fin 8192 => Stage.v9 a b (ix2 r c)) = fun c => logit a b r c :=
    funext fun c => v9_apply a b r c
  rw [hc, e]

/-- Minus infinity at every row. -/
theorem call2_v1_apply (j : S8192.Idx) : Stage.call2_v1 j = ninf := by
  unfold Stage.call2_v1
  exact (splat_apply _ _ j).trans rfl

/-- Row r's maximum joined with minus infinity. -/
theorem call2_v2_apply (a b : Contrast.Table) (r : Fin 8192) : Stage.call2_v2 a b (ix1 r) = rowMax a b r := by
  unfold Stage.call2_v2 rowMax
  refine (maximumf_apply _ _ _).trans ?_
  rw [call2_v1_apply, call2_v0_apply]

/-- Row r's maximum, along the row. -/
theorem call2_v4_apply (a b : Contrast.Table) (r c : Fin 8192) : Stage.call2_v4 a b (ix2 r c) = rowMax a b r := by
  unfold Stage.call2_v4 Stage.call2_v3
  exact (bcast_col_mat_apply _ _ r c).trans ((bcast_vec_col_apply _ _ r 0).trans (call2_v2_apply a b r))

/-- The logit less its row's maximum. -/
theorem call2_v5_apply (a b : Contrast.Table) (r c : Fin 8192) :
    Stage.call2_v5 a b (ix2 r c) = logit a b r c - rowMax a b r := by
  unfold Stage.call2_v5
  refine (subf_apply _ _ _).trans ?_
  rw [v9_apply, call2_v4_apply]

/-- Its exponential. -/
theorem call2_v6_apply (a b : Contrast.Table) (r c : Fin 8192) :
    Stage.call2_v6 a b (ix2 r c) = Ideal.exp (logit a b r c - rowMax a b r) := by
  unfold Stage.call2_v6
  refine (hostExp_apply _ _).trans ?_
  rw [call2_v5_apply]

/-- Row r's sum of exponentials (the sum starts from the zero word, which is 0). -/
theorem call2_v7_apply (a b : Contrast.Table) (r : Fin 8192) :
    Stage.call2_v7 a b (ix1 r) = ∑ c' : Fin 8192, Ideal.exp (logit a b r c' - rowMax a b r) := by
  unfold Stage.call2_v7
  refine (reduceAdd_rows_apply _ _ _ (by decide) _ r).trans ?_
  have h0 : Stage.call2_cst_1 ix0 = 0 := Ideal.ofBits_zero_f32
  rw [h0, zero_add]
  exact Finset.sum_congr rfl fun c' _ => call2_v6_apply a b r c'

/-- The logarithm of row r's sum of exponentials, along the row. -/
theorem call2_v10_apply (a b : Contrast.Table) (r c : Fin 8192) :
    Stage.call2_v10 a b (ix2 r c) = Ideal.log (∑ c' : Fin 8192, Ideal.exp (logit a b r c' - rowMax a b r)) := by
  unfold Stage.call2_v10 Stage.call2_v9 Stage.call2_v8
  refine (bcast_col_mat_apply _ _ r c).trans ?_
  refine (hostLog_apply _ _).trans ?_
  exact congrArg Ideal.log ((bcast_vec_col_apply _ _ r 0).trans (call2_v7_apply a b r))

/-- Entry (r, c) of the log-softmax. -/
theorem v14_apply (a b : Contrast.Table) (r c : Fin 8192) : Stage.v14 a b (ix2 r c) = logProb a b r c := by
  unfold Stage.v14 logProb
  refine (subf_apply _ _ _).trans ?_
  rw [call2_v5_apply, call2_v10_apply]

end Cert.ReferenceIdeal.Hand

end
-- ==== Proof.RefReadWords.lean ====
/-
  Facts about 32-bit words that the label arithmetic of the reference needs.

  Row r's label is (r + 4096) mod 8192, formed on 32-bit words: the row number plus 4096, its truncated remainder by 8192,
  and a sign correction that never fires because the dividend is not negative. The picked column is then tested against
  the range 0 … 8191 and clamped into it; for a row number's word both tests hold and the clamp is the identity. Every
  fact is proved by reading the words as naturals or integers: all the numbers involved are below 2^31.
-/
import Idealize.ShloMosaic.Lib.ValueIdx

noncomputable section

namespace Cert.ReferenceIdeal.Hand

open Idealize.ShloMosaic Idealize.ShloMosaic.ValueIdx

/-- On a non-negative dividend the signed remainder by 8192 is the unsigned one. -/
theorem srem_8192_of_nonneg (x : BitVec 32) (hx : x.toNat < 2 ^ 31) : x.srem 8192#32 = x % 8192#32 := by
  have hm : x.msb = false := by rw [BitVec.msb_eq_false_iff_two_mul_lt]; omega
  have hy : (8192#32 : BitVec 32).msb = false := by decide
  rw [BitVec.srem_eq, hm, hy]

/-- The word of a small natural reads back, signed, as that natural. -/
theorem toInt_ofNat_small (m : ℕ) (hm : m < 2 ^ 31) : (BitVec.ofNat 32 m).toInt = (m : Int) := by
  have h1 : (BitVec.ofNat 32 m).toNat = m := by rw [BitVec.toNat_ofNat]; omega
  rw [BitVec.toInt_eq_toNat_of_lt (by rw [h1]; omega), h1]

/-- jnp's remainder of row number plus 4096 by 8192, before its sign fix-up. -/
theorem remsi_label (n : ℕ) (hn : n < 8192) :
    IntOp.remsi .host (IntOp.addi (BitVec.ofNat 32 n) 4096#32) 8192#32 = BitVec.ofNat 32 ((n + 4096) % 8192) := by
  have hx : (IntOp.addi (BitVec.ofNat 32 n) 4096#32).toNat = n + 4096 := by
    show (BitVec.ofNat 32 n + 4096#32).toNat = _
    rw [BitVec.toNat_add, BitVec.toNat_ofNat]
    show (n % 2 ^ 32 + 4096) % 2 ^ 32 = n + 4096
    omega
  have hc : ¬ IntOp.SDivCorner (IntOp.addi (BitVec.ofNat 32 n) 4096#32) 8192#32 := by
    rintro (h | ⟨_, h⟩)
    · exact absurd h (by decide)
    · exact absurd h (by decide)
  unfold IntOp.remsi
  rw [if_neg hc, srem_8192_of_nonneg _ (by rw [hx]; omega)]
  apply BitVec.eq_of_toNat_eq
  rw [BitVec.toNat_umod, hx, BitVec.toNat_ofNat]
  show (n + 4096) % 8192 = (n + 4096) % 8192 % 2 ^ 32
  omega

/-- A small natural's word is not negative … -/
theorem cmpi_slt_zero_small (m : ℕ) (hm : m < 2 ^ 31) : IntOp.cmpi .slt (BitVec.ofNat 32 m) 0#32 = 0#1 := by
  show BitVec.ofBool ((BitVec.ofNat 32 m).slt 0#32) = 0#1
  rw [BitVec.slt_eq_decide, toInt_ofNat_small m hm]
  have : ¬ ((m : Int) < (0#32 : BitVec 32).toInt) := by
    show ¬ ((m : Int) < 0); omega
  rw [decide_eq_false this]; rfl

/-- … it is at least zero … -/
theorem cmpi_sge_zero_small (m : ℕ) (hm : m < 2 ^ 31) : IntOp.cmpi .sge (BitVec.ofNat 32 m) 0#32 = 1#1 := by
  show BitVec.ofBool ((0#32 : BitVec 32).sle (BitVec.ofNat 32 m)) = 1#1
  rw [BitVec.sle_eq_decide, toInt_ofNat_small m hm]
  have : ((0#32 : BitVec 32).toInt ≤ (m : Int)) := by
    show (0 : Int) ≤ m; omega
  rw [decide_eq_true this]; rfl

/-- … and a row number's word is at most 8191. -/
theorem cmpi_sle_8191_row (m : ℕ) (hm : m < 8192) : IntOp.cmpi .sle (BitVec.ofNat 32 m) 8191#32 = 1#1 := by
  show BitVec.ofBool ((BitVec.ofNat 32 m).sle 8191#32) = 1#1
  rw [BitVec.sle_eq_decide, toInt_ofNat_small m (by omega)]
  have : ((m : Int) ≤ (8191#32 : BitVec 32).toInt) := by
    show (m : Int) ≤ 8191; omega
  rw [decide_eq_true this]; rfl

/-- A row number's word, read signed and clamped into the row range, is the row number. -/
theorem clamp_row (m : ℕ) (hm : m < 8192) : min (BitVec.ofNat 32 m).toInt.toNat 8191 = m := by
  rw [toInt_ofNat_small m (by omega)]
  show min m 8191 = m
  omega

end Cert.ReferenceIdeal.Hand

end
-- ==== Proof.RefReadLabel.lean ====
/-
  The reference's integer labels and its range test, read row by row.

  Row r's label is formed on 32-bit words as jnp's remainder of r + 4096 by 8192: the modulus is kept (it is not 0), the
  truncated remainder is taken, and its sign correction does not fire, since neither the remainder nor the modulus is
  negative; so the label's word is that of (r + 4096) mod 8192, row r's partner. The picking function then adds 8192 to a
  negative index (the label is not negative: it is kept), gives it a unit index-vector axis, and tests it against 0 and
  against 8191, joining the tests over the unit axis from the start value 1: the test holds at every row.
-/
import proofs.«159738_j86492051407169_2_alg».proof.Proof.RefStages
import proofs.«159738_j86492051407169_2_alg».proof.Proof.RefReadLayout
import proofs.«159738_j86492051407169_2_alg».proof.Proof.RefReadWords

noncomputable section

namespace Cert.ReferenceIdeal.Hand

open Idealize.ShloMosaic Idealize.ShloMosaic.ValueIdx Cert.ReferenceIdeal Cert.Contrast

/-! ### The labels -/

/-- Row number plus 4096. -/
theorem v12_apply (r : Fin 8192) : Stage.v12 (ix1 r) = IntOp.addi (BitVec.ofNat 32 r.val) 4096#32 := by
  unfold Stage.v12
  show IntOp.addi (Stage.v10 (ix1 r)) (Stage.v11 (ix1 r)) = _
  have h11 : Stage.v11 (ix1 r) = 4096#32 := by
    unfold Stage.v11
    exact (splat_apply _ _ _).trans rfl
  rw [h11]
  rfl

/-- The divisor is the modulus 8192 (the modulus is not 0). -/
theorem call1_v2_apply (j : S_.Idx) : Stage.call1_v2 j = 8192#32 := by
  unfold Stage.call1_v2 Stage.call1_v1 Stage.call1_v0 Stage.call1_c Stage.call1_c_0 Stage.c_1
  rfl

/-- The truncated remainder of r + 4096 by 8192 is the partner's row number. -/
theorem call1_v4_apply (r : Fin 8192) : Stage.call1_v4 (ix1 r) = BitVec.ofNat 32 (partner r).val := by
  unfold Stage.call1_v4
  show IntOp.remsi .host (Stage.v12 (ix1 r)) (Stage.call1_v3 (ix1 r)) = _
  have h3 : Stage.call1_v3 (ix1 r) = 8192#32 := by
    unfold Stage.call1_v3
    exact (splat_apply _ _ _).trans (call1_v2_apply _)
  rw [v12_apply, h3]
  exact remsi_label r.val r.isLt

/-- The remainder is not negative. -/
theorem call1_v8_apply (r : Fin 8192) : Stage.call1_v8 (ix1 r) = 0#1 := by
  unfold Stage.call1_v8
  show IntOp.cmpi .slt (Stage.call1_v4 (ix1 r)) (Stage.call1_v7 (ix1 r)) = _
  have h7 : Stage.call1_v7 (ix1 r) = 0#32 := by
    unfold Stage.call1_v7
    exact (splat_apply _ _ _).trans rfl
  rw [call1_v4_apply, h7]
  exact cmpi_slt_zero_small _ (by have := (partner r).isLt; omega)

/-- The divisor is not negative. -/
theorem call1_v9_apply (j : S_.Idx) : Stage.call1_v9 j = 0#1 := by
  unfold Stage.call1_v9
  show IntOp.cmpi .slt (Stage.call1_v2 j) (Stage.call1_c_3 j) = _
  rw [call1_v2_apply]
  rfl

/-- The sign correction does not fire. -/
theorem call1_v12_apply (r : Fin 8192) : Stage.call1_v12 (ix1 r) = 0#1 := by
  unfold Stage.call1_v12
  show IntOp.andi (Stage.call1_v11 (ix1 r)) (Stage.call1_v6 (ix1 r)) = _
  have h10 : Stage.call1_v10 (ix1 r) = 0#1 := by
    unfold Stage.call1_v10
    exact (splat_apply _ _ _).trans (call1_v9_apply _)
  have h11 : Stage.call1_v11 (ix1 r) = 0#1 := by
    unfold Stage.call1_v11
    show IntOp.cmpi .ne (Stage.call1_v8 (ix1 r)) (Stage.call1_v10 (ix1 r)) = _
    rw [call1_v8_apply, h10]
    rfl
  rw [h11]
  exact BitVec.zero_and

/-- Row r's label is its partner's row number. -/
theorem v13_apply (r : Fin 8192) : Stage.v13 (ix1 r) = BitVec.ofNat 32 (partner r).val := by
  unfold Stage.v13
  show Scalar.select (Stage.call1_v12 (ix1 r)) (Stage.call1_v14 (ix1 r)) (Stage.call1_v4 (ix1 r)) = _
  rw [call1_v12_apply, select_zero, call1_v4_apply]

/-! ### The index the picking function uses, and its range test -/

/-- The label in the column. -/
theorem v15_apply (r : Fin 8192) (u : Fin 1) : Stage.v15 (ix2 r u) = BitVec.ofNat 32 (partner r).val := by
  unfold Stage.v15
  exact (bcast_vec_col_apply _ _ r u).trans (v13_apply r)

/-- The label is not negative, so it is kept as the index. -/
theorem call3_v4_apply (r : Fin 8192) (u : Fin 1) : Stage.call3_v4 (ix2 r u) = BitVec.ofNat 32 (partner r).val := by
  unfold Stage.call3_v4
  show Scalar.select (Stage.call3_v1 (ix2 r u)) (Stage.call3_v3 (ix2 r u)) (Stage.v15 (ix2 r u)) = _
  have h0 : Stage.call3_v0 (ix2 r u) = 0#32 := by
    unfold Stage.call3_v0
    exact (splat_apply _ _ _).trans rfl
  have h1 : Stage.call3_v1 (ix2 r u) = 0#1 := by
    unfold Stage.call3_v1
    show IntOp.cmpi .slt (Stage.v15 (ix2 r u)) (Stage.call3_v0 (ix2 r u)) = _
    rw [v15_apply, h0]
    exact cmpi_slt_zero_small _ (by have := (partner r).isLt; omega)
  rw [h1, select_zero, v15_apply]

/-- The index with its unit index-vector axis. -/
theorem call3_v5_apply (r : Fin 8192) (u v : Fin 1) : Stage.call3_v5 (ix3 r u v) = BitVec.ofNat 32 (partner r).val := by
  unfold Stage.call3_v5
  exact (shapeCast_a1_a11_apply _ _ r u v).trans (call3_v4_apply r 0)

/-- The index is inside the range 0 … 8191 at every row. -/
theorem call3_v11_apply (r : Fin 8192) (u v : Fin 1) : Stage.call3_v11 (ix3 r u v) = 1#1 := by
  unfold Stage.call3_v11
  show IntOp.andi (Stage.call3_v7 (ix3 r u v)) (Stage.call3_v10 (ix3 r u v)) = _
  have h6 : Stage.call3_v6 (ix3 r u v) = 0#32 := by
    unfold Stage.call3_v6
    exact (splat_apply _ _ _).trans rfl
  have h7 : Stage.call3_v7 (ix3 r u v) = 1#1 := by
    unfold Stage.call3_v7
    show IntOp.cmpi .sge (Stage.call3_v5 (ix3 r u v)) (Stage.call3_v6 (ix3 r u v)) = _
    rw [call3_v5_apply, h6]
    exact cmpi_sge_zero_small _ (by have := (partner r).isLt; omega)
  have h9 : Stage.call3_v9 (ix3 r u v) = 8191#32 := by
    unfold Stage.call3_v9 Stage.call3_v8
    exact (bcast_unit3_rows_apply _ _ _).trans ((bcast_one_unit3_apply _ _ _).trans rfl)
  have h10 : Stage.call3_v10 (ix3 r u v) = 1#1 := by
    unfold Stage.call3_v10
    show IntOp.cmpi .sle (Stage.call3_v5 (ix3 r u v)) (Stage.call3_v9 (ix3 r u v)) = _
    rw [call3_v5_apply, h9]
    exact cmpi_sle_8191_row _ (partner r).isLt
  rw [h7, h10]
  rfl

/-- The range test joined over the unit index-vector axis holds at every row. -/
theorem call3_v12_apply (r : Fin 8192) (u : Fin 1) : Stage.call3_v12 (ix2 r u) = 1#1 := by
  unfold Stage.call3_v12
  refine (reduceAnd_unit_apply _ _ _ (by decide) _ r u).trans ?_
  rw [call3_v11_apply]
  rfl

end Cert.ReferenceIdeal.Hand

end
-- ==== Proof.RefReadGather.lean ====
/-
  A gather that picks one column per row, read at a row.

  The operand is an [8192, 8192] table and the start indices an [8192, 1, 1] array: axis 0 of both is a batching axis, the
  index vector (axis 2 of the start indices) has one component, which names a column of the operand (axis 1, collapsed),
  and the slice is one element. The result [8192, 1] holds, at (r, 0), the operand at row r and at the column
  the start index of row r names, read signed and clamped into 0 … 8191.
-/
import Idealize.ShloMosaic.Lib.ValueIdx

noncomputable section

namespace Cert.ReferenceIdeal.Hand

open Idealize.ShloMosaic Idealize.ShloMosaic.ValueIdx

abbrev rowTakeDims (wf : GatherDims.WF ⟨2, ![8192, 8192]⟩ ⟨3, ![8192, 1, 1]⟩ ⟨2, ![8192, 1]⟩ [] [1] [0] [1] [0] 2 ![1, 1]) :
    GatherDims ⟨2, ![8192, 8192]⟩ ⟨3, ![8192, 1, 1]⟩ ⟨2, ![8192, 1]⟩ where
  offsetDims := []
  collapsedSliceDims := [1]
  operandBatchingDims := [0]
  startIndicesBatchingDims := [0]
  startIndexMap := [1]
  indexVectorDim := 2
  sliceSizes := ![1, 1]
  wf := wf

theorem gather_row_apply {α : Type} {w : Nat}
    (wf : GatherDims.WF ⟨2, ![8192, 8192]⟩ ⟨3, ![8192, 1, 1]⟩ ⟨2, ![8192, 1]⟩ [] [1] [0] [1] [0] 2 ![1, 1])
    (x : (⟨2, ![8192, 8192]⟩ : Shape).Idx → α) (idx : IVec ⟨3, ![8192, 1, 1]⟩ w) (r : Fin 8192) :
    Host.gather (rowTakeDims wf) x idx (ix2 r (0 : Fin 1))
      = x (ix2 r (⟨min (idx (ix3 r (0 : Fin 1) (0 : Fin 1))).toInt.toNat 8191, by omega⟩ : Fin 8192)) := by
  unfold Host.gather
  congr 1
  funext a
  match a with
  | ⟨0, _⟩ =>
    refine Fin.ext ?_
    show (rowTakeDims wf).start (ix2 r (0 : Fin 1)) idx 0 + (rowTakeDims wf).batchCoord (ix2 r (0 : Fin 1)) 0
      + (rowTakeDims wf).offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (rowTakeDims wf).operandBatchingDims from List.mem_singleton.mpr rfl)]
    rfl
  | ⟨1, _⟩ =>
    refine Fin.ext ?_
    show (rowTakeDims wf).start (ix2 r (0 : Fin 1)) idx 1 + (rowTakeDims wf).batchCoord (ix2 r (0 : Fin 1)) 1
      + (rowTakeDims wf).offCoord (ix2 r (0 : Fin 1)) 1 = min (idx (ix3 r (0 : Fin 1) (0 : Fin 1))).toInt.toNat 8191
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims wf).startIndexMap from List.mem_singleton.mpr rfl)]
    have hsi : (rowTakeDims wf).siIdx (ix2 r (0 : Fin 1)) ⟨List.idxOf (1 : Fin 2) (rowTakeDims wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.ReferenceIdeal.Hand

end
-- ==== Proof.RefReadLoss.lean ====
/-
  The reference's picked entries and their sum.

  The picking function gathers, in every row r, the log-softmax entry at the column the row's index names, read signed
  and clamped into 0 … 8191: the index is the word of row r's partner, so the entry is (r, partner r); the range test
  holds at every row, so the gathered entry is kept and the fill value is never used. The column of picked entries is
  recast as a vector and summed from 0.
-/
import proofs.«159738_j86492051407169_2_alg».proof.Proof.RefReadLogProb
import proofs.«159738_j86492051407169_2_alg».proof.Proof.RefReadLabel
import proofs.«159738_j86492051407169_2_alg».proof.Proof.RefReadGather

noncomputable section

open scoped BigOperators

namespace Cert.ReferenceIdeal.Hand

open Idealize.ShloMosaic Idealize.ShloMosaic.ValueIdx Cert.ReferenceIdeal Cert.Contrast

/-- The gathered entry of row r: the log-softmax at (r, partner r). -/
theorem call3_v13_apply (a b : Contrast.Table) (r : Fin 8192) :
    Stage.call3_v13 a b (ix2 r (0 : Fin 1)) = logProb a b r (partner r) := by
  unfold Stage.call3_v13
  refine (gather_row_apply Facts₀.gather_S8192x8192_S8192x1x1_S8192x1_n_1_0_0_1_2_11_wf
    (Stage.v14 a b) Stage.call3_v5 r).trans ?_
  refine (congrArg (fun q : Fin 8192 => Stage.v14 a b (ix2 r q)) (Fin.ext ?_)).trans (v14_apply a b r (partner r))
  show min (Stage.call3_v5 (ix3 r (0 : Fin 1) (0 : Fin 1))).toInt.toNat 8191 = (partner r).val
  rw [call3_v5_apply]
  exact clamp_row _ (partner r).isLt

/-- The picked entry of row r: the range test holds, so it is the gathered entry. -/
theorem v16_apply (a b : Contrast.Table) (r : Fin 8192) :
    Stage.v16 a b (ix2 r (0 : Fin 1)) = logProb a b r (partner r) := by
  unfold Stage.v16
  refine (select_apply _ _ _ _).trans ?_
  rw [call3_v12_apply, select_one, call3_v13_apply]

/-- The picked entries as a vector. -/
theorem v17_apply (a b : Contrast.Table) (r : Fin 8192) : Stage.v17 a b (ix1 r) = logProb a b r (partner r) := by
  unfold Stage.v17
  exact (shapeCast_a1_a_apply _ _ r).trans (v16_apply a b r)

/-- Their sum (it starts from the zero word, which is 0). -/
theorem v18_apply (a b : Contrast.Table) (j : S_.Idx) :
    Stage.v18 a b j = ∑ r : Fin 8192, logProb a b r (partner r) := by
  unfold Stage.v18
  refine (reduceAdd_vec_apply _ _ _ _ j).trans ?_
  have h0 : Stage.cst_2 ix0 = 0 := Ideal.ofBits_zero_f32
  rw [h0, zero_add]
  exact Finset.sum_congr rfl fun r _ => v17_apply a b r

end Cert.ReferenceIdeal.Hand

end
-- ==== Proof.RefRead.lean ====
/-
  The reference's result is the specification's softmax loss.

  The sum over the rows r of the log-softmax entry (r, partner r) is negated and divided by the number of rows, the
  constant 8192: read at its one index, the scalar the reference returns is the softmax loss of the two tables, whatever
  extended reals the tables hold.
-/
import proofs.«159738_j86492051407169_2_alg».proof.Proof.RefReadLoss

noncomputable section

open scoped BigOperators

namespace Cert.ReferenceIdeal.Hand

open Idealize.ShloMosaic Idealize.ShloMosaic.ValueIdx Cert.ReferenceIdeal Cert.Contrast

/-- The scalar the reference returns is the softmax loss of the two tables. -/
theorem result_eq (a b : Cert.Contrast.Table) :
    Cert.ReferenceIdeal.Stage.result a b = fun _ => Cert.Contrast.softmaxLoss a b := by
  funext j
  unfold Stage.result Stage.v20 softmaxLoss
  refine (hostDivf_apply _ _ _).trans ?_
  have h3 : Stage.cst_3 j = count := rfl
  have h19 : Stage.v19 a b j = -(∑ r : Fin 8192, logProb a b r (partner r)) := by
    unfold Stage.v19
    refine (hostNegf_apply _ _).trans ?_
    rw [v18_apply]
  rw [h19, h3]

end Cert.ReferenceIdeal.Hand

end
-- ==== Proof.lean ====
/-
  The five claims of this certificate.

  Both programs compute a contrastive loss of two [4096, 256] tables z_i, z_j. Stack them into 8192 rows,
  divide each row by its Euclidean norm (clamped below by a small positive constant), and let
  cosine r c be the inner product of unit rows r and c; row r's partner is row r + 4096 modulo 8192.

  * The kernel program normalises the halves on the host and forms S = Σ_{p < 4096} cosine p (p + 4096)
    there; its kernel runs on an 8 × 4 grid of (row block, column block) points, and for every row
    accumulates, column block by column block, Σ_c exp (2 · cosine r c − 2) in a scratch column, writing
    2 + log of the total at the last column block; the host then returns
    −((2 · S) / (1/2)) / 8192 + (Σ_r of those) / 8192.
  * The reference forms all logits cosine r c / (1/2), takes the row-wise log-softmax (subtracting the row
    maximum), picks in each row the partner's entry, and returns −(Σ_r) / 8192.

  At the ideal values both are one function of the tables as soon as every entry is a real number, which is
  what the precondition says: a log-sum-exp does not depend on its shift
  (s + log Σ exp (x − s) = log Σ exp x for a real s), and the partner entries of the symmetric cosine matrix,
  summed over all rows, count every pair (p, p + 4096) twice. Finiteness is used exactly there: with an
  infinite entry the norms, the shifts and the logarithms leave the reals and the two sides need not meet.

  Modules: Spec (the two losses as functions of the tables), Literals / RealLaws / Analysis (their equality on
  real entries), Finite (the precondition gives real entries), KPoint* / KBlocks* (what each grid point leaves,
  and the output column), KHost* / KTail* (the host operations around the kernel, and the kernel program's
  run), RefStages / RefRun* (the reference's operations and its run), RefRead* (the reference's result read
  entry by entry).
-/
import proofs.«159738_j86492051407169_2_alg».proof.Defs
import proofs.«159738_j86492051407169_2_alg».proof.Proof.Gen.Kernel
import proofs.«159738_j86492051407169_2_alg».proof.Proof.Gen.Kernel.Frame
import proofs.«159738_j86492051407169_2_alg».proof.Proof.Gen.KernelIdeal
import proofs.«159738_j86492051407169_2_alg».proof.Proof.Gen.KernelIdeal.Frame
import proofs.«159738_j86492051407169_2_alg».proof.Proof.Gen.ReferenceIdeal
import proofs.«159738_j86492051407169_2_alg».proof.Proof.Gen.Pre_finite_inputs
import proofs.«159738_j86492051407169_2_alg».proof.Proof.Analysis
import proofs.«159738_j86492051407169_2_alg».proof.Proof.Finite
import proofs.«159738_j86492051407169_2_alg».proof.Proof.KBlocks
import proofs.«159738_j86492051407169_2_alg».proof.Proof.KTailRun
import proofs.«159738_j86492051407169_2_alg».proof.Proof.RefRun
import proofs.«159738_j86492051407169_2_alg».proof.Proof.RefRead

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories agreeing on the two tables, whose entries the precondition makes real numbers, the kernel program
    ends at the loss with the fixed shift and the reference at the loss with the row maximum: one number. -/
theorem algebraic : Cert.algebraic_KernelIdeal_ReferenceIdeal := by
  intro m ρ m' ρ' hpre hagree
  refine ⟨_, Cert.KernelIdeal.Val.run m ρ (fun c => Cert.KernelIdeal.Val.final m c), ?_⟩
  refine (θ_run Cert.ReferenceIdeal.defs _ _).mono (fun _ h c => ⟨(h c).1.trans ?_, (h c).2⟩)
    (Cert.ReferenceIdeal.Hand.run m' ρ')
  rw [(hagree c).1, (hagree c).2, Cert.ReferenceIdeal.Hand.result_eq]
  obtain ⟨ha, hb⟩ := Cert.Contrast.allReal_of_pre _ _ (hpre c)
  exact funext fun _ => (Cert.Contrast.loss_eq ha hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
